-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg17 : FVec F S16 .f32) (main_arg18 : FVec F S128x16 .f32) (main_arg19 : FVec F S16 .f32) (main_v48 : IVec S_ 1) (main_v49 : FVec F S128x16 .f32) (main_v50 : FVec F S128x16 .f32) : IVec S_ 1 :=
  let main_v51 : IVec S128x16 1 := cmpf .olt main_v49 main_v50
  let main_c_19 : IVec S_ 1 := constantI S_ 1 1#1
  let main_v52 : IVec S_ 1 := (fun x v => Host.reduce IntOp.andi x v reducesTo_S128x16_S_d0_1 h_S_) main_v51 main_c_19
  let main_v53 : IVec S_ 1 := andi main_v48 main_v52
  let main_v54 : FVec F S16 .f32 := Host.absf main_arg17
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S128x16 .f32 := Host.absf main_arg18
  let main_cst_22 : FVec F S_ .f32 := constant S_ .f32 0x7F800000#32
  let main_v60 : FVec F S128x16 .f32 := broadcastInDim S128x16 ![] bcast_S_S128x16 main_cst_22
  let main_v61 : IVec S128x16 1 := cmpf .olt main_v59 main_v60
  let main_c_23 : IVec S_ 1 := constantI S_ 1 1#1
  let main_v62 : IVec S_ 1 := (fun x v => Host.reduce IntOp.andi x v reducesTo_S128x16_S_d0_1 h_S_) main_v61 main_c_23
  let main_v63 : IVec S_ 1 := andi main_v58 main_v62
  let main_v64 : FVec F S16 .f32 := Host.absf main_arg19
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_v63 main_v67

def fn_part2 {F : FTy → Type} [FloatOps F] (main_arg13 : FVec F S128 .f32) (main_arg14 : FVec F S128x16 .f32) (main_arg15 : FVec F S16 .f32) (main_arg16 : FVec F S128x16 .f32) (main_arg17 : FVec F S16 .f32) (main_arg18 : FVec F S128x16 .f32) (main_arg19 : FVec F S16 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x16 .f32 := Host.absf main_arg14
  let main_cst_14 : FVec F S_ .f32 := constant S_ .f32 0x7F800000#32
  let main_v40 : FVec F S128x16 .f32 := broadcastInDim S128x16 ![] bcast_S_S128x16 main_cst_14
  let main_v41 : IVec S128x16 1 := cmpf .olt main_v39 main_v40
  let main_c_15 : IVec S_ 1 := constantI S_ 1 1#1
  let main_v42 : IVec S_ 1 := (fun x v => Host.reduce IntOp.andi x v reducesTo_S128x16_S_d0_1 h_S_) main_v41 main_c_15
  let main_v43 : IVec S_ 1 := andi main_v38 main_v42
  let main_v44 : FVec F S16 .f32 := Host.absf main_arg15
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S128x16 .f32 := Host.absf main_arg16
  let main_cst_18 : FVec F S_ .f32 := constant S_ .f32 0x7F800000#32
  let main_v50 : FVec F S128x16 .f32 := broadcastInDim S128x16 ![] bcast_S_S128x16 main_cst_18
  fn_part3 (F := F) main_arg17 main_arg18 main_arg19 main_v48 main_v49 main_v50

def fn_part1 {F : FTy → Type} [FloatOps F] (main_arg10 : FVec F S128x128 .f32) (main_arg11 : FVec F S128 .f32) (main_arg12 : FVec F S128x128 .f32) (main_arg13 : FVec F S128 .f32) (main_arg14 : FVec F S128x16 .f32) (main_arg15 : FVec F S16 .f32) (main_arg16 : FVec F S128x16 .f32) (main_arg17 : FVec F S16 .f32) (main_arg18 : FVec F S128x16 .f32) (main_arg19 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg12
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg13 main_arg14 main_arg15 main_arg16 main_arg17 main_arg18 main_arg19 main_v33

def fn {F : FTy → Type} [FloatOps F] (main_arg0 : FVec F S100000x128 .f32) (main_arg1 : FVec F S100000x128 .f32) (main_arg2 : IVec S600000 32) (main_arg3 : IVec S600000 32) (main_arg4 : IVec S600000 32) (main_arg5 : IVec S600000 32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x16 .f32) (main_arg15 : FVec F S16 .f32) (main_arg16 : FVec F S128x16 .f32) (main_arg17 : FVec F S16 .f32) (main_arg18 : FVec F S128x16 .f32) (main_arg19 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg10 main_arg11 main_arg12 main_arg13 main_arg14 main_arg15 main_arg16 main_arg17 main_arg18 main_arg19 main_v13 main_v16
-- ==== Kernel.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S5000x128 : Shape := ⟨2, ![5000, 128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S100000x16 : Shape := ⟨2, ![100000, 16]⟩
abbrev S5000x16 : Shape := ⟨2, ![5000, 16]⟩
abbrev S1x16 : Shape := ⟨2, ![1, 16]⟩
abbrev S600000x16 : Shape := ⟨2, ![600000, 16]⟩

abbrev nBuf : Space → Nat
  | .hbm => 153
  | .vmem => 46
  | .smem => 0
  | _ => 0

abbrev hbmTy0_0 (i : Nat) : BufTy := match i % 128 with
  | 0 => ⟨S100000x128, .f32⟩
  | 1 => ⟨S100000x128, .f32⟩
  | 2 => ⟨S600000, .i32⟩
  | 3 => ⟨S600000, .i32⟩
  | 4 => ⟨S600000, .i32⟩
  | 5 => ⟨S600000, .i32⟩
  | 6 => ⟨S600000, .i32⟩
  | 7 => ⟨S600000, .i32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x16, .f32⟩
  | 15 => ⟨S16, .f32⟩
  | 16 => ⟨S128x16, .f32⟩
  | 17 => ⟨S16, .f32⟩
  | 18 => ⟨S128x16, .f32⟩
  | 19 => ⟨S16, .f32⟩
  | 20 => ⟨S100000x128, .f32⟩
  | 21 => ⟨S100000x128, .f32⟩
  | 22 => ⟨S100000x128, .f32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S_, .f32⟩
  | 33 => ⟨S100000x128, .f32⟩
  | 34 => ⟨S600000x1, .i32⟩
  | 35 => ⟨S100000x128, .f32⟩
  | 36 => ⟨S_, .f32⟩
  | 37 => ⟨S600000, .f32⟩
  | 38 => ⟨S_, .f32⟩
  | 39 => ⟨S100000, .f32⟩
  | 40 => ⟨S600000x1, .i32⟩
  | 41 => ⟨S100000, .f32⟩
  | 42 => ⟨S_, .f32⟩
  | 43 => ⟨S100000, .f32⟩
  | 44 => ⟨S100000, .f32⟩
  | 45 => ⟨S100000x1, .f32⟩
  | 46 => ⟨S100000x128, .f32⟩
  | 47 => ⟨S100000x128, .f32⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S600000x128, .f32⟩
  | 57 => ⟨S_, .f32⟩
  | 58 => ⟨S100000x128, .f32⟩
  | 59 => ⟨S600000x1, .i32⟩
  | 60 => ⟨S100000x128, .f32⟩
  | 61 => ⟨S_, .f32⟩
  | 62 => ⟨S600000, .f32⟩
  | 63 => ⟨S_, .f32⟩
  | 64 => ⟨S100000, .f32⟩
  | 65 => ⟨S600000x1, .i32⟩
  | 66 => ⟨S100000, .f32⟩
  | 67 => ⟨S_, .f32⟩
  | 68 => ⟨S100000, .f32⟩
  | 69 => ⟨S100000, .f32⟩
  | 70 => ⟨S100000x1, .f32⟩
  | 71 => ⟨S100000x128, .f32⟩
  | 72 => ⟨S100000x128, .f32⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S600000x128, .f32⟩
  | 82 => ⟨S_, .f32⟩
  | 83 => ⟨S100000x128, .f32⟩
  | 84 => ⟨S600000x1, .i32⟩
  | 85 => ⟨S100000x128, .f32⟩
  | 86 => ⟨S_, .f32⟩
  | 87 => ⟨S600000, .f32⟩
  | 88 => ⟨S_, .f32⟩
  | 89 => ⟨S100000, .f32⟩
  | 90 => ⟨S600000x1, .i32⟩
  | 91 => ⟨S100000, .f32⟩
  | 92 => ⟨S_, .f32⟩
  | 93 => ⟨S100000, .f32⟩
  | 94 => ⟨S100000, .f32⟩
  | 95 => ⟨S100000x1, .f32⟩
  | 96 => ⟨S100000x128, .f32⟩
  | 97 => ⟨S100000x128, .f32⟩
  | 98 => ⟨S100000x128, .f32⟩
  | 99 => ⟨S100000x128, .f32⟩
  | 100 => ⟨S100000x16, .f32⟩
  | 101 => ⟨S100000x16, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000x16, .f32⟩
  | 111 => ⟨S_, .f32⟩
  | 112 => ⟨S100000x16, .f32⟩
  | 113 => ⟨S600000x1, .i32⟩
  | 114 => ⟨S100000x16, .f32⟩
  | 115 => ⟨S_, .f32⟩
  | 116 => ⟨S600000, .f32⟩
  | 117 => ⟨S_, .f32⟩
  | 118 => ⟨S100000, .f32⟩
  | 119 => ⟨S600000x1, .i32⟩
  | 120 => ⟨S100000, .f32⟩
  | 121 => ⟨S_, .f32⟩
  | 122 => ⟨S100000, .f32⟩
  | 123 => ⟨S100000, .f32⟩
  | 124 => ⟨S100000x1, .f32⟩
  | 125 => ⟨S100000x16, .f32⟩
  | 126 => ⟨S100000x16, .f32⟩
  | 127 => ⟨S_, .i32⟩
  | _ => ⟨S100000x128, .f32⟩

abbrev hbmTy0_1 (i : Nat) : BufTy := match i % 128 with
  | 0 => ⟨S600000, .i32⟩
  | 1 => ⟨S600000, .i1⟩
  | 2 => ⟨S_, .i32⟩
  | 3 => ⟨S600000, .i32⟩
  | 4 => ⟨S600000, .i32⟩
  | 5 => ⟨S600000, .i32⟩
  | 6 => ⟨S600000x1, .i32⟩
  | 7 => ⟨S600000x16, .f32⟩
  | 8 => ⟨S_, .f32⟩
  | 9 => ⟨S100000x16, .f32⟩
  | 10 => ⟨S600000x1, .i32⟩
  | 11 => ⟨S100000x16, .f32⟩
  | 12 => ⟨S_, .f32⟩
  | 13 => ⟨S600000, .f32⟩
  | 14 => ⟨S_, .f32⟩
  | 15 => ⟨S100000, .f32⟩
  | 16 => ⟨S600000x1, .i32⟩
  | 17 => ⟨S100000, .f32⟩
  | 18 => ⟨S_, .f32⟩
  | 19 => ⟨S100000, .f32⟩
  | 20 => ⟨S100000, .f32⟩
  | 21 => ⟨S100000x1, .f32⟩
  | 22 => ⟨S100000x16, .f32⟩
  | 23 => ⟨S100000x16, .f32⟩
  | 24 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x16, .f32⟩
  | .local _ .vmem, ⟨31, _⟩ => ⟨S16, .f32⟩
  | .local _ .vmem, ⟨32, _⟩ => ⟨S5000x16, .f32⟩
  | .local _ .vmem, ⟨33, _⟩ => ⟨S5000x16, .f32⟩
  | .local _ .vmem, ⟨34, _⟩ => ⟨S5000x128, .f32⟩
  | .local _ .vmem, ⟨35, _⟩ => ⟨S5000x128, .f32⟩
  | .local _ .vmem, ⟨36, _⟩ => ⟨S128x16, .f32⟩
  | .local _ .vmem, ⟨37, _⟩ => ⟨S16, .f32⟩
  | .local _ .vmem, ⟨38, _⟩ => ⟨S5000x16, .f32⟩
  | .local _ .vmem, ⟨39, _⟩ => ⟨S5000x16, .f32⟩
  | .local _ .vmem, ⟨40, _⟩ => ⟨S5000x16, .f32⟩
  | .local _ .vmem, ⟨41, _⟩ => ⟨S5000x16, .f32⟩
  | .local _ .vmem, ⟨42, _⟩ => ⟨S5000x16, .f32⟩
  | .local _ .vmem, ⟨43, _⟩ => ⟨S5000x16, .f32⟩
  | .local _ .vmem, ⟨44, _⟩ => ⟨S5000x16, .f32⟩
  | .local _ .vmem, ⟨45, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_c : Ref sig .tc := ⟨.hbm, 23, rfl⟩
abbrev main_v3 : Ref sig .tc := ⟨.hbm, 24, rfl⟩
abbrev main_v4 : Ref sig .tc := ⟨.hbm, 25, rfl⟩
abbrev main_c_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_1 : Ref sig .tc := ⟨.hbm, 36, rfl⟩
abbrev main_v13 : Ref sig .tc := ⟨.hbm, 37, rfl⟩
abbrev main_cst_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_3 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_4 : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_6 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_7 : Ref sig .tc := ⟨.hbm, 61, rfl⟩
abbrev main_v32 : Ref sig .tc := ⟨.hbm, 62, rfl⟩
abbrev main_cst_8 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_9 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_c_10 : Ref sig .tc := ⟨.hbm, 73, rfl⟩
abbrev main_v41 : Ref sig .tc := ⟨.hbm, 74, rfl⟩
abbrev main_v42 : Ref sig .tc := ⟨.hbm, 75, rfl⟩
abbrev main_c_11 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_12 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_13 : Ref sig .tc := ⟨.hbm, 86, rfl⟩
abbrev main_v51 : Ref sig .tc := ⟨.hbm, 87, rfl⟩
abbrev main_cst_14 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_15 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_c_16 : Ref sig .tc := ⟨.hbm, 102, rfl⟩
abbrev main_v64 : Ref sig .tc := ⟨.hbm, 103, rfl⟩
abbrev main_v65 : Ref sig .tc := ⟨.hbm, 104, rfl⟩
abbrev main_c_17 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_18 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_19 : Ref sig .tc := ⟨.hbm, 115, rfl⟩
abbrev main_v74 : Ref sig .tc := ⟨.hbm, 116, rfl⟩
abbrev main_cst_20 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_21 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_c_22 : Ref sig .tc := ⟨.hbm, 127, rfl⟩
abbrev main_v83 : Ref sig .tc := ⟨.hbm, 128, rfl⟩
abbrev main_v84 : Ref sig .tc := ⟨.hbm, 129, rfl⟩
abbrev main_c_23 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_24 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_25 : Ref sig .tc := ⟨.hbm, 140, rfl⟩
abbrev main_v93 : Ref sig .tc := ⟨.hbm, 141, rfl⟩
abbrev main_cst_26 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_cst_27 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg3_0 : Ref sig .tc := ⟨.vmem, 38, rfl⟩
abbrev cc6_stg3_1 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg1_1 : Ref sig .tc := ⟨.vmem, 43, rfl⟩
abbrev cc7_stg2_0 : Ref sig .tc := ⟨.vmem, 44, rfl⟩
abbrev cc7_stg2_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem3_0 : DmaSem sig := 38
abbrev cc6_sem3_1 : DmaSem sig := 39
abbrev cc7_sem0_0 : DmaSem sig := 40
abbrev cc7_sem0_1 : DmaSem sig := 41
abbrev cc7_sem1_0 : DmaSem sig := 42
abbrev cc7_sem1_1 : DmaSem sig := 43
abbrev cc7_sem2_0 : DmaSem sig := 44
abbrev cc7_sem2_1 : DmaSem sig := 45

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x16 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x16 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x16 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S5000x128_S5000x128 : S5000x128.ShapeCasts S5000x128
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  shapeCasts_S5000x16_S5000x16 : S5000x16.ShapeCasts S5000x16
  dot_S5000x128_S128x128_S5000x128_1_0_0_1_n_n_wf : DotDims.WF S5000x128 S128x128 S5000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S5000x128_S128x16_S5000x16_1_0_0_1_n_n_wf : DotDims.WF S5000x128 S128x16 S5000x16 [1] [0] [0] [1] [] []
  gather_S100000x16_S600000x1_S600000x16_1_0_n_n_0_1_116_wf : GatherDims.WF S100000x16 S600000x1 S600000x16 [1] [0] [] [0] [] 1 ![1, 16]
  scatter_S100000x16_S600000x1_S600000x16_1_0_0_1_wf : ScatterDims.WF S100000x16 S600000x1 S600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x16.size a ≤ S128x16.size a
  hwx5_1 : ∀ i : grid5.Coords, EltTy.bits .f32 = 32 ∨ (Rect.block (s := S128x16) S128x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S16.size a ≤ S16.size a
  hwx5_2 : ∀ i : grid5.Coords, EltTy.bits .f32 = 32 ∨ (Rect.block (s := S16) S16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x16.size a ≤ S100000x16.size a
  hwx5_3 : ∀ i : grid5.Coords, EltTy.bits .f32 = 32 ∨ (Rect.block (s := S100000x16) S5000x16.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x16.size a ≤ S128x16.size a
  hwx6_1 : ∀ i : grid6.Coords, EltTy.bits .f32 = 32 ∨ (Rect.block (s := S128x16) S128x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S16.size a ≤ S16.size a
  hwx6_2 : ∀ i : grid6.Coords, EltTy.bits .f32 = 32 ∨ (Rect.block (s := S16) S16.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x16.size a ≤ S100000x16.size a
  hwx6_3 : ∀ i : grid6.Coords, EltTy.bits .f32 = 32 ∨ (Rect.block (s := S100000x16) S5000x16.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x16.size a ≤ S100000x16.size a
  hwx7_0 : ∀ i : grid7.Coords, EltTy.bits .f32 = 32 ∨ (Rect.block (s := S100000x16) S5000x16.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x16.size a ≤ S100000x16.size a
  hwx7_1 : ∀ i : grid7.Coords, EltTy.bits .f32 = 32 ∨ (Rect.block (s := S100000x16) S5000x16.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x16.size a ≤ S100000x16.size a
  hwx7_2 : ∀ i : grid7.Coords, EltTy.bits .f32 = 32 ∨ (Rect.block (s := S100000x16) S5000x16.size (cc7_transform_2 i) (hinb7_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S600000x1_S600000x16_1_0_n_n_0_1_116 : GatherDims S100000x16 S600000x1 S600000x16 where
  offsetDims := [1]
  collapsedSliceDims := [0]
  operandBatchingDims := []
  startIndicesBatchingDims := []
  startIndexMap := [0]
  indexVectorDim := 1
  sliceSizes := ![1, 16]
  wf := gather_S100000x16_S600000x1_S600000x16_1_0_n_n_0_1_116_wf
def scatter_S100000x16_S600000x1_S600000x16_1_0_0_1 : ScatterDims S100000x16 S600000x1 S600000x16 where
  updateWindowDims := [1]
  insertedWindowDims := [0]
  scatterDimsToOperandDims := [0]
  indexVectorDim := 1
  wf := scatter_S100000x16_S600000x1_S600000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v21) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S5000x128.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v60) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg14) S128x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg15) S16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v62) S5000x16.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v61) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg18) S128x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg19) S16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v63) S5000x16.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v82) S5000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v101) S5000x16.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v102) S5000x16.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S100000x16 : Shape := ⟨2, ![100000, 16]⟩
abbrev S1x16 : Shape := ⟨2, ![1, 16]⟩
abbrev S600000x16 : Shape := ⟨2, ![600000, 16]⟩

abbrev nBuf : Space → Nat
  | .hbm => 173
  | .vmem => 0
  | .smem => 0
  | _ => 0

abbrev hbmTy0_0 (i : Nat) : BufTy := match i % 128 with
  | 0 => ⟨S100000x128, .f32⟩
  | 1 => ⟨S100000x128, .f32⟩
  | 2 => ⟨S600000, .i32⟩
  | 3 => ⟨S600000, .i32⟩
  | 4 => ⟨S600000, .i32⟩
  | 5 => ⟨S600000, .i32⟩
  | 6 => ⟨S600000, .i32⟩
  | 7 => ⟨S600000, .i32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x16, .f32⟩
  | 15 => ⟨S16, .f32⟩
  | 16 => ⟨S128x16, .f32⟩
  | 17 => ⟨S16, .f32⟩
  | 18 => ⟨S128x16, .f32⟩
  | 19 => ⟨S16, .f32⟩
  | 20 => ⟨S100000x128, .f32⟩
  | 21 => ⟨S1x128, .f32⟩
  | 22 => ⟨S100000x128, .f32⟩
  | 23 => ⟨S100000x128, .f32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000x128, .f32⟩
  | 33 => ⟨S_, .f32⟩
  | 34 => ⟨S100000x128, .f32⟩
  | 35 => ⟨S600000x1, .i32⟩
  | 36 => ⟨S100000x128, .f32⟩
  | 37 => ⟨S_, .f32⟩
  | 38 => ⟨S600000, .f32⟩
  | 39 => ⟨S_, .f32⟩
  | 40 => ⟨S100000, .f32⟩
  | 41 => ⟨S600000x1, .i32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .f32⟩
  | 62 => ⟨S_, .f32⟩
  | 63 => ⟨S100000x128, .f32⟩
  | 64 => ⟨S600000x1, .i32⟩
  | 65 => ⟨S100000x128, .f32⟩
  | 66 => ⟨S_, .f32⟩
  | 67 => ⟨S600000, .f32⟩
  | 68 => ⟨S_, .f32⟩
  | 69 => ⟨S100000, .f32⟩
  | 70 => ⟨S600000x1, .i32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x128, .f32⟩
  | 77 => ⟨S100000x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .i32⟩
  | 84 => ⟨S600000, .i32⟩
  | 85 => ⟨S600000, .i1⟩
  | 86 => ⟨S_, .i32⟩
  | 87 => ⟨S600000, .i32⟩
  | 88 => ⟨S600000, .i32⟩
  | 89 => ⟨S600000, .i32⟩
  | 90 => ⟨S600000x1, .i32⟩
  | 91 => ⟨S600000x128, .f32⟩
  | 92 => ⟨S_, .f32⟩
  | 93 => ⟨S100000x128, .f32⟩
  | 94 => ⟨S600000x1, .i32⟩
  | 95 => ⟨S100000x128, .f32⟩
  | 96 => ⟨S_, .f32⟩
  | 97 => ⟨S600000, .f32⟩
  | 98 => ⟨S_, .f32⟩
  | 99 => ⟨S100000, .f32⟩
  | 100 => ⟨S600000x1, .i32⟩
  | 101 => ⟨S100000, .f32⟩
  | 102 => ⟨S_, .f32⟩
  | 103 => ⟨S100000, .f32⟩
  | 104 => ⟨S100000, .f32⟩
  | 105 => ⟨S100000x1, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S100000x16, .f32⟩
  | 115 => ⟨S1x16, .f32⟩
  | 116 => ⟨S100000x16, .f32⟩
  | 117 => ⟨S100000x16, .f32⟩
  | 118 => ⟨S_, .i32⟩
  | 119 => ⟨S600000, .i32⟩
  | 120 => ⟨S600000, .i1⟩
  | 121 => ⟨S_, .i32⟩
  | 122 => ⟨S600000, .i32⟩
  | 123 => ⟨S600000, .i32⟩
  | 124 => ⟨S600000, .i32⟩
  | 125 => ⟨S600000x1, .i32⟩
  | 126 => ⟨S600000x16, .f32⟩
  | 127 => ⟨S_, .f32⟩
  | _ => ⟨S100000x128, .f32⟩

abbrev hbmTy0_1 (i : Nat) : BufTy := match i % 128 with
  | 0 => ⟨S100000x16, .f32⟩
  | 1 => ⟨S600000x1, .i32⟩
  | 2 => ⟨S100000x16, .f32⟩
  | 3 => ⟨S_, .f32⟩
  | 4 => ⟨S600000, .f32⟩
  | 5 => ⟨S_, .f32⟩
  | 6 => ⟨S100000, .f32⟩
  | 7 => ⟨S600000x1, .i32⟩
  | 8 => ⟨S100000, .f32⟩
  | 9 => ⟨S_, .f32⟩
  | 10 => ⟨S100000, .f32⟩
  | 11 => ⟨S100000, .f32⟩
  | 12 => ⟨S100000x1, .f32⟩
  | 13 => ⟨S100000x16, .f32⟩
  | 14 => ⟨S100000x16, .f32⟩
  | 15 => ⟨S100000x16, .f32⟩
  | 16 => ⟨S1x16, .f32⟩
  | 17 => ⟨S100000x16, .f32⟩
  | 18 => ⟨S100000x16, .f32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x16, .f32⟩
  | 28 => ⟨S_, .f32⟩
  | 29 => ⟨S100000x16, .f32⟩
  | 30 => ⟨S600000x1, .i32⟩
  | 31 => ⟨S100000x16, .f32⟩
  | 32 => ⟨S_, .f32⟩
  | 33 => ⟨S600000, .f32⟩
  | 34 => ⟨S_, .f32⟩
  | 35 => ⟨S100000, .f32⟩
  | 36 => ⟨S600000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x16, .f32⟩
  | 43 => ⟨S100000x16, .f32⟩
  | 44 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_4 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_cst_8 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_9 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_10 : Ref sig .tc := ⟨.hbm, 83, rfl⟩
abbrev main_v51 : Ref sig .tc := ⟨.hbm, 84, rfl⟩
abbrev main_v52 : Ref sig .tc := ⟨.hbm, 85, rfl⟩
abbrev main_c_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_12 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_13 : Ref sig .tc := ⟨.hbm, 96, rfl⟩
abbrev main_v61 : Ref sig .tc := ⟨.hbm, 97, rfl⟩
abbrev main_cst_14 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_15 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_call0_cst : Ref sig .tc := ⟨.hbm, 108, rfl⟩
abbrev main_call0_v0 : Ref sig .tc := ⟨.hbm, 109, rfl⟩
abbrev main_v70 : Ref sig .tc := ⟨.hbm, 110, rfl⟩
abbrev main_call1_cst : Ref sig .tc := ⟨.hbm, 111, rfl⟩
abbrev main_call1_v0 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_c_16 : Ref sig .tc := ⟨.hbm, 118, rfl⟩
abbrev main_v76 : Ref sig .tc := ⟨.hbm, 119, rfl⟩
abbrev main_v77 : Ref sig .tc := ⟨.hbm, 120, rfl⟩
abbrev main_c_17 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_18 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_19 : Ref sig .tc := ⟨.hbm, 131, rfl⟩
abbrev main_v86 : Ref sig .tc := ⟨.hbm, 132, rfl⟩
abbrev main_cst_20 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_21 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_c_22 : Ref sig .tc := ⟨.hbm, 147, rfl⟩
abbrev main_v99 : Ref sig .tc := ⟨.hbm, 148, rfl⟩
abbrev main_v100 : Ref sig .tc := ⟨.hbm, 149, rfl⟩
abbrev main_c_23 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_cst_24 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_25 : Ref sig .tc := ⟨.hbm, 160, rfl⟩
abbrev main_v109 : Ref sig .tc := ⟨.hbm, 161, rfl⟩
abbrev main_cst_26 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_27 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x16_S100000x16_1_0_0_1_n_n_wf : DotDims.WF S100000x128 S128x16 S100000x16 [1] [0] [0] [1] [] []
  gather_S100000x16_S600000x1_S600000x16_1_0_n_n_0_1_116_wf : GatherDims.WF S100000x16 S600000x1 S600000x16 [1] [0] [] [0] [] 1 ![1, 16]
  scatter_S100000x16_S600000x1_S600000x16_1_0_0_1_wf : ScatterDims.WF S100000x16 S600000x1 S600000x16 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S600000x1_S600000x16_1_0_n_n_0_1_116 : GatherDims S100000x16 S600000x1 S600000x16 where
  offsetDims := [1]
  collapsedSliceDims := [0]
  operandBatchingDims := []
  startIndicesBatchingDims := []
  startIndexMap := [0]
  indexVectorDim := 1
  sliceSizes := ![1, 16]
  wf := gather_S100000x16_S600000x1_S600000x16_1_0_n_n_0_1_116_wf
def scatter_S100000x16_S600000x1_S600000x16_1_0_0_1 : ScatterDims S100000x16 S600000x1 S600000x16 where
  updateWindowDims := [1]
  insertedWindowDims := [0]
  scatterDimsToOperandDims := [0]
  indexVectorDim := 1
  wf := scatter_S100000x16_S600000x1_S600000x16_1_0_0_1_wf

class Facts : Prop extends Facts₀ where

variable [Facts]
-- ==== Proof.KernelRun.lean ====
/-
  The idealized kernel's run with every buffer named.

  @main is ten segments: three kernel regions, a stretch of host operations, four regions, a second stretch, one last
  region. The buffer contents at the segment boundaries are a fold from the launch memory (the generated `W0` … `W10`:
  a host stretch applies its operations; a region replaces its arrays by what its write-backs leave and keeps every
  other buffer). The launch over these segments ends with every buffer that outlives a kernel at the fold's last
  contents `W10`; read against the final memory this gives the result array, and the arguments, by name.
-/
import proofs.«108900_j70978629533711_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each buffer that
    outlives a kernel holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The result array in every final state: the last boundary's contents at its buffer. -/
theorem result_mem (r : PUnit × MemSt nD τ sig (Elt F))
    (h : ∀ c : Dev nD, ∀ b ∈ Pipeline.ucRefs τ sig, r.2.mem (((c : Thread nD τ)).1, b) = W10 m ρ c b) (c : Dev nD) :
    r.2.mem ((c.tc : Thread nD τ).loc main_v102) = W10 m ρ c (Proc.devRef .tc main_v102) :=
  h c _ (mem_uc main_v102 (by decide))

end Cert.KernelIdeal.Whole

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«108900_j70978629533711_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.LibHostColumn.lean ====
/-
  A vector repeated into a matrix by the host's two broadcasts.

  The host repeats a vector along a new axis in two steps: it first gives the vector a unit axis (`broadcast_in_dim`
  of [n] into [n, 1] along dimension 0, or of [b] into [1, b] along dimension 1), then repeats the unit axis
  (`broadcast_in_dim` of [n, 1] or [1, b] into [n, b] along dimensions 0 and 1). Read at (p, k) the result is the
  vector at the coordinate it was laid along: the row `p` for a column, the column `k` for a row. A size-one axis
  of the operand is read at 0 whatever the result's coordinate, which is why the case of a vector of one entry needs
  no separate statement.
-/
import Idealize.ShloMosaic.Lib.Pipeline.Value
import Idealize.ShloMosaic.Lib.ValueIdx

namespace Idealize.ShloMosaic.HostColumn

open Idealize.ShloMosaic Idealize.ShloMosaic.ValueIdx

variable {α : Type}

/-- A vector of `n` entries kept as an [n, 1] column and that column repeated to [n, b], both by the host's
    `broadcast_in_dim`, reads the vector at the row. -/
theorem column_apply {n b : Nat} (x : (⟨1, ![n]⟩ : Shape).Idx → α)
    (b1 : (⟨1, ![n]⟩ : Shape).BroadcastsInDim ⟨2, ![n, 1]⟩ ![0])
    (b2 : (⟨2, ![n, 1]⟩ : Shape).BroadcastsInDim ⟨2, ![n, b]⟩ ![0, 1]) (p : Fin n) (k : Fin b) :
    broadcastInDim ⟨2, ![n, b]⟩ ![0, 1] b2 (broadcastInDim ⟨2, ![n, 1]⟩ ![0] b1 x) (ix2 p k) = x (ix1 p) := by
  refine (broadcastInDim_apply _ b2 _ (ix2 p k) (ix2 p (0 : Fin 1)) fun a => ?_).trans
    (broadcastInDim_apply _ b1 x (ix2 p (0 : Fin 1)) (ix1 p) fun a => ?_)
  · match a with
    | ⟨0, _⟩ =>
      show p.val = if n = 1 then 0 else p.val
      split
      · have := p.isLt; omega
      · rfl
    | ⟨1, _⟩ => rfl
  · match a with
    | ⟨0, _⟩ =>
      show p.val = if n = 1 then 0 else p.val
      split
      · have := p.isLt; omega
      · rfl

/-- A vector of `b` entries given a leading unit axis and repeated down `n` rows, both by the host's
    `broadcast_in_dim`, reads the vector at the column. -/
theorem row_apply {n b : Nat} (x : (⟨1, ![b]⟩ : Shape).Idx → α)
    (b3 : (⟨1, ![b]⟩ : Shape).BroadcastsInDim ⟨2, ![1, b]⟩ ![1])
    (b4 : (⟨2, ![1, b]⟩ : Shape).BroadcastsInDim ⟨2, ![n, b]⟩ ![0, 1]) (p : Fin n) (j : Fin b) :
    broadcastInDim ⟨2, ![n, b]⟩ ![0, 1] b4 (broadcastInDim ⟨2, ![1, b]⟩ ![1] b3 x) (ix2 p j) = x (ix1 j) := by
  refine (broadcastInDim_apply _ b4 _ (ix2 p j) (ix2 (0 : Fin 1) j) fun a => ?_).trans
    (broadcastInDim_apply _ b3 x (ix2 (0 : Fin 1) j) (ix1 j) fun a => ?_)
  · match a with
    | ⟨0, _⟩ => rfl
    | ⟨1, _⟩ =>
      show j.val = if b = 1 then 0 else j.val
      split
      · have := j.isLt; omega
      · rfl
  · match a with
    | ⟨0, _⟩ =>
      show j.val = if b = 1 then 0 else j.val
      split
      · have := j.isLt; omega
      · rfl

end Idealize.ShloMosaic.HostColumn
-- ==== Proof.Layers.lean ====
/-
  The layers of the two-layer relational graph network, as functions on the extended reals, index by index.

  A LINEAR LAYER is x · w + b: entry (r, j) is the sum over k of x(r, k) · w(k, j), plus b(j). The kernel computes
  it one block of rows at a time (the matrix unit's product into a zero accumulator, the bias a vector given a
  leading unit axis and repeated down the block's rows); the reference computes it on the whole array (the host's
  dot_general, the bias repeated by two broadcasts). Both are the one function `affine` below, at any extents, and a
  block of rows of `affine` is `affine` of that block of rows. A change of float format is not seen on the
  extended reals, so the kernel's rounding of both operands to bf16 before the product changes nothing here.

  The other layers are entrywise: a sum of two arrays, and the rectifier max(x, 0) whose zero is the f32 zero word on
  both sides (the same word, never evaluated).
-/
import Idealize.ShloMosaic.PureOps.Ideal.Laws
import Idealize.ShloMosaic.Lib.ValueIdx
import Idealize.ShloMosaic.Lib.ValueLayout
import Idealize.ShloMosaic.Lib.KernelVsHost
import proofs.«108900_j70978629533711_1_alg».proof.Proof.LibRowsTimes
import proofs.«108900_j70978629533711_1_alg».proof.Proof.LibRowsCols
import proofs.«108900_j70978629533711_1_alg».proof.Proof.LibColumnLayout
import proofs.«108900_j70978629533711_1_alg».proof.Proof.LibHostColumn

noncomputable section

namespace Cert.Rgcn

open Idealize.ShloMosaic Idealize.ShloMosaic.ValueIdx Cert.Dense

/-- The linear layer x · w + b: entry (r, j) is ∑ k, x(r, k) · w(k, j), plus b(j). -/
def affine {M K N : Nat} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => rowsTimes x w i + b (ix1 (i 1 : Fin N))

/-- The entrywise sum of two arrays. -/
def plus {S : Shape} (x y : S.Idx → EReal) : S.Idx → EReal := fun i => x i + y i

/-- A row of the layer depends on the same row of x only: where x' at row `j 0` is x at row `i 0`, and the two
    indices name the same column, the layers agree at `j` and `i`. -/
theorem affine_of_rows {M R K N : Nat} (x : (⟨2, ![M, K]⟩ : Shape).Idx → EReal) (x' : (⟨2, ![R, K]⟩ : Shape).Idx → EReal)
    (w w' : (⟨2, ![K, N]⟩ : Shape).Idx → EReal) (b b' : (⟨1, ![N]⟩ : Shape).Idx → EReal)
    (j : (⟨2, ![R, N]⟩ : Shape).Idx) (i : (⟨2, ![M, N]⟩ : Shape).Idx)
    (hx : ∀ k : Fin K, x' (ix2 (j 0 : Fin R) k) = x (ix2 (i 0 : Fin M) k))
    (hw : ∀ k : Fin K, w' (ix2 k (j 1 : Fin N)) = w (ix2 k (i 1 : Fin N)))
    (hb : b' (ix1 (j 1 : Fin N)) = b (ix1 (i 1 : Fin N))) :
    affine x' w' b' j = affine x w b i := by
  unfold affine
  rw [rowsTimes_of_rows x w x' w' j i hx hw, hb]

/-- The kernel's body on one block of rows: both operands rounded to bf16 (not seen here), the matrix unit's product
    into a zero accumulator, plus the bias given a leading unit axis and repeated down the rows — is the layer. -/
theorem block_affine_apply {R K N : Nat} {d : DotDims ⟨2, ![R, K]⟩ ⟨2, ![K, N]⟩ ⟨2, ![R, N]⟩} (h : RowsCols d)
    (prec : Option ContractPrecision) (hlt : FTy.bits .bf16 < FTy.bits .f32)
    (x : FVec Ideal ⟨2, ![R, K]⟩ .f32) (w : FVec Ideal ⟨2, ![K, N]⟩ .f32) (b : FVec Ideal ⟨1, ![N]⟩ .f32)
    (h₁ : (⟨1, ![N]⟩ : Shape).ShapeCasts ⟨2, ![1, N]⟩) (h₂ : (⟨2, ![1, N]⟩ : Shape).Broadcasts ⟨2, ![R, N]⟩)
    (j : (⟨2, ![R, N]⟩ : Shape).Idx) :
    addf (matmul d prec (truncf .bf16 x hlt) (truncf .bf16 w hlt) (constant (F := Ideal) ⟨2, ![R, N]⟩ .f32 0x00000000#32))
      (broadcastTo ⟨2, ![R, N]⟩ (shapeCast ⟨2, ![1, N]⟩ b h₁) h₂) j = affine x w b j := by
  obtain ⟨p, q, rfl⟩ : ∃ (p : Fin R) (q : Fin N), j = ix2 p q := ⟨j 0, j 1, eq_ix2 j⟩
  show FloatOps.matmul d prec (truncf .bf16 x hlt) (truncf .bf16 w hlt) (constant (F := Ideal) ⟨2, ![R, N]⟩ .f32 0x00000000#32) (ix2 p q)
      + broadcastTo ⟨2, ![R, N]⟩ (shapeCast ⟨2, ![1, N]⟩ b h₁) h₂ (ix2 p q) = _
  rw [matmul_zero_apply h prec, ColumnLayout.row_broadcast_apply]
  rfl

/-- The reference's layer on the whole array: the host's dot_general plus the bias repeated by the host's two
    broadcasts — is the layer, as one function. -/
theorem host_affine_eq {M K N : Nat} {d : DotDims ⟨2, ![M, K]⟩ ⟨2, ![K, N]⟩ ⟨2, ![M, N]⟩} (h : RowsCols d)
    (prec : Option ContractPrecision)
    (x : FVec Ideal ⟨2, ![M, K]⟩ .f32) (w : FVec Ideal ⟨2, ![K, N]⟩ .f32) (b : FVec Ideal ⟨1, ![N]⟩ .f32)
    (b3 : (⟨1, ![N]⟩ : Shape).BroadcastsInDim ⟨2, ![1, N]⟩ ![1])
    (b4 : (⟨2, ![1, N]⟩ : Shape).BroadcastsInDim ⟨2, ![M, N]⟩ ![0, 1]) :
    addf (Host.dotGeneral d prec x w) (broadcastInDim ⟨2, ![M, N]⟩ ![0, 1] b4 (broadcastInDim ⟨2, ![1, N]⟩ ![1] b3 b))
      = affine x w b := by
  funext j
  obtain ⟨p, q, rfl⟩ : ∃ (p : Fin M) (q : Fin N), j = ix2 p q := ⟨j 0, j 1, eq_ix2 j⟩
  show Host.dotGeneral d prec x w (ix2 p q)
      + broadcastInDim ⟨2, ![M, N]⟩ ![0, 1] b4 (broadcastInDim ⟨2, ![1, N]⟩ ![1] b3 b) (ix2 p q) = _
  rw [dotGeneral_apply h prec, HostColumn.row_apply]
  rfl

/-- An entrywise operation at an entry reads its operands at that entry: where the operands of one side at `j` are
    the operands of the other at `i`, the results agree (the sum, the rectifier, the rectified sum). -/
theorem plus_at {S T : Shape} (x y : S.Idx → EReal) (x' y' : T.Idx → EReal) (j : T.Idx) (i : S.Idx)
    (hx : x' j = x i) (hy : y' j = y i) : plus x' y' j = plus x y i := by
  unfold plus; rw [hx, hy]

theorem relu_at {S T : Shape} (x : S.Idx → EReal) (x' : T.Idx → EReal) (j : T.Idx) (i : S.Idx)
    (hx : x' j = x i) : relu x' j = relu x i := by
  unfold relu; rw [hx]

theorem relu_plus_at {S T : Shape} (x y : S.Idx → EReal) (x' y' : T.Idx → EReal) (j : T.Idx) (i : S.Idx)
    (hx : x' j = x i) (hy : y' j = y i) : relu (plus x' y') j = relu (plus x y) i :=
  relu_at _ _ j i (plus_at x y x' y' j i hx hy)

/-- The host's sum of two arrays is the entrywise sum. -/
theorem host_plus_eq {S : Shape} (x y : FVec Ideal S .f32) : addf x y = plus x y := rfl

/-- The host's rectifier — the maximum with the zero constant broadcast to the array's shape — is the entrywise
    rectifier. -/
theorem host_relu_eq {S : Shape} (x : FVec Ideal S .f32) (hb : (⟨0, ![]⟩ : Shape).BroadcastsInDim S ![]) :
    maximumf x (broadcastInDim S ![] hb (constant (F := Ideal) ⟨0, ![]⟩ .f32 0x00000000#32)) = relu x := by
  rw [broadcastInDim_constant]
  rfl

end Cert.Rgcn

end
-- ==== Proof.KernelHost.lean ====
/-
  The two stretches of host operations between the kernel regions, read back.

  Each stretch is the mean aggregation over one or several edge lists: gather the rows of a node table at the edges'
  sources (a negative source counted from the end, as jnp indexing does), add each gathered row into the row of its
  destination, count the edges arriving at each destination the same way, and divide each row by max(count, 1).
  The same operations, with the same constants, make up the reference's aggregation, so here they are kept as ONE
  function of the table and the two index vectors and never opened: what each stretch leaves in its result buffers is
  that function of the buffers the stretch reads.
-/
import proofs.«108900_j70978629533711_1_alg».proof.Proof.Gen.KernelIdeal.Launch
import Idealize.ShloMosaic.Lib.StableHlo.Run
import proofs.«108900_j70978629533711_1_alg».proof.Proof.Layers

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo

variable {F : FTy → Type} [FloatOps F]

/-- The mean over incoming edges of a table of 128-wide rows: row r of the result is the sum of the table's rows
    src(e) over the edges e with dst(e) = r, divided by max(number of such edges, 1). -/
def meanAgg128 (x : FVec F S100000x128 .f32) (src dst : IVec S600000 32) : FVec F S100000x128 .f32 :=
  Host.divf
    (Host.scatterAdd scatter_S100000x128_S600000x1_S600000x128_1_0_0_1
      (broadcastInDim S100000x128 ![] bcast_S_S100000x128 (constant S_ .f32 0x00000000#32))
      (broadcastInDim S600000x1 ![0] bcast_S600000_S600000x1_0 dst)
      (Host.gather gather_S100000x128_S600000x1_S600000x128_1_0_n_n_0_1_1128 x
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S600000x1_S600000_n_0_0_1
            (broadcastInDim S100000 ![] bcast_S_S100000 (constant S_ .f32 0x00000000#32))
            (broadcastInDim S600000x1 ![0] bcast_S600000_S600000x1_0 dst)
            (broadcastInDim S600000 ![] bcast_S_S600000 (constant S_ .f32 0x3F800000#32)))
          (broadcastInDim S100000 ![] bcast_S_S100000 (constant S_ .f32 0x3F800000#32)))))

/-- The same mean over incoming edges, of a table of 16-wide rows. -/
def meanAgg16 (x : FVec F S100000x16 .f32) (src dst : IVec S600000 32) : FVec F S100000x16 .f32 :=
  Host.divf
    (Host.scatterAdd scatter_S100000x16_S600000x1_S600000x16_1_0_0_1
      (broadcastInDim S100000x16 ![] bcast_S_S100000x16 (constant S_ .f32 0x00000000#32))
      (broadcastInDim S600000x1 ![0] bcast_S600000_S600000x1_0 dst)
      (Host.gather gather_S100000x16_S600000x1_S600000x16_1_0_n_n_0_1_116 x
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 100000#32))) src))))
    (broadcastInDim S100000x16 ![0, 1] bcast_S100000x1_S100000x16_0_1
      (broadcastInDim S100000x1 ![0] bcast_S100000_S100000x1_0
        (maximumf
          (Host.scatterAdd scatter_S100000_S600000x1_S600000_n_0_0_1
            (broadcastInDim S100000 ![] bcast_S_S100000 (constant S_ .f32 0x00000000#32))
            (broadcastInDim S600000x1 ![0] bcast_S600000_S600000x1_0 dst)
            (broadcastInDim S600000 ![] bcast_S_S600000 (constant S_ .f32 0x3F800000#32)))
          (broadcastInDim S100000 ![] bcast_S_S100000 (constant S_ .f32 0x3F800000#32)))))

variable (W : Valuation τ sig (Elt F))

/-- After the first stretch: the user→user aggregation of the first projection. -/
theorem host3_v21 : StableHlo.after hostOps3 W (Proc.devRef .tc main_v21)
    = meanAgg128 (W (Proc.devRef .tc main_v0)) (W (Proc.devRef .tc main_arg2)) (W (Proc.devRef .tc main_arg3)) := by
  after_results_simp <;> rfl

/-- After the first stretch: the item→user aggregation of the third projection. -/
theorem host3_v40 : StableHlo.after hostOps3 W (Proc.devRef .tc main_v40)
    = meanAgg128 (W (Proc.devRef .tc main_v2)) (W (Proc.devRef .tc main_arg6)) (W (Proc.devRef .tc main_arg7)) := by
  after_results_simp <;> rfl

/-- After the first stretch: the user→item aggregation of the second projection. -/
theorem host3_v59 : StableHlo.after hostOps3 W (Proc.devRef .tc main_v59)
    = meanAgg128 (W (Proc.devRef .tc main_v1)) (W (Proc.devRef .tc main_arg4)) (W (Proc.devRef .tc main_arg5)) := by
  after_results_simp <;> rfl

/-- After the second stretch: the user→user aggregation of the second layer's first projection. -/
theorem host7_v82 : StableHlo.after hostOps7 W (Proc.devRef .tc main_v82)
    = meanAgg16 (W (Proc.devRef .tc main_v62)) (W (Proc.devRef .tc main_arg2)) (W (Proc.devRef .tc main_arg3)) := by
  after_results_simp <;> rfl

/-- After the second stretch: the item→user aggregation of the second layer's second projection. -/
theorem host7_v101 : StableHlo.after hostOps7 W (Proc.devRef .tc main_v101)
    = meanAgg16 (W (Proc.devRef .tc main_v63)) (W (Proc.devRef .tc main_arg6)) (W (Proc.devRef .tc main_arg7)) := by
  after_results_simp <;> rfl

open Cert.Rgcn Cert.Dense in
/-- The two-layer network as one function of the argument arrays it reads: two layers of per-edge-type linear maps, each followed by the mean over incoming edges, the aggregations arriving at one node type added, a rectifier between the layers. -/
def networkOf (a0 a1 : FVec Ideal S100000x128 .f32) (a2 a3 a4 a5 a6 a7 : IVec S600000 32)
    (a8 : FVec Ideal S128x128 .f32) (a9 : FVec Ideal S128 .f32) (a10 : FVec Ideal S128x128 .f32) (a11 : FVec Ideal S128 .f32)
    (a12 : FVec Ideal S128x128 .f32) (a13 : FVec Ideal S128 .f32) (a14 : FVec Ideal S128x16 .f32) (a15 : FVec Ideal S16 .f32)
    (a18 : FVec Ideal S128x16 .f32) (a19 : FVec Ideal S16 .f32) : FVec Ideal S100000x16 .f32 :=
  plus
    (meanAgg16 (F := Ideal) (affine (relu (plus (meanAgg128 (F := Ideal) (affine a0 a8 a9) a2 a3)
        (meanAgg128 (F := Ideal) (affine a1 a12 a13) a6 a7))) a14 a15) a2 a3)
    (meanAgg16 (F := Ideal) (affine (relu (meanAgg128 (F := Ideal) (affine a0 a10 a11) a4 a5)) a18 a19) a6 a7)

end Cert.KernelIdeal.Whole

end
-- ==== Proof.Region0.lean ====
/-
  Region 0 of the idealized kernel: a linear layer, one block of 5000 rows per grid point.

  Its four windows are the input rows (block t is rows 5000·t … 5000·t + 4999, all 128 columns), the weights and the
  bias (the whole array at every point) and the output rows (block t, all 128 columns). What point t writes back is
  the layer of its block of input rows, which is that block of rows of the layer of the whole input: a row of x · w + b
  reads the same row of x only. The twenty blocks fill the output array, so after the region it holds the layer of the
  arrays the region was entered with.
-/
import proofs.«108900_j70978629533711_1_alg».proof.Proof.Gen.KernelIdeal.Frame
import proofs.«108900_j70978629533711_1_alg».proof.Proof.Layers
import Idealize.ShloMosaic.Lib.Pipeline.Value

set_option maxRecDepth 16384

noncomputable section

namespace Cert.KernelIdeal.Whole.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Rgcn Cert.Dense

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The printed contraction is rows times columns: it contracts the left operand's columns with the right operand's
    rows. -/
theorem rowsCols : RowsCols dot_S5000x128_S128x128_S5000x128_1_0_0_1_n_n :=
  ⟨rfl, rfl, fun _ _ => rfl, fun _ _ => rfl, fun _ _ => rfl, fun _ _ => rfl⟩

/-- The body's arithmetic on its three loaded blocks is the layer of those blocks, entry by entry. -/
theorem pay_apply (x0 : Vec Ideal S5000x128 .f32) (x1 : Vec Ideal S128x128 .f32) (x2 : Vec Ideal S128 .f32) (j : S5000x128.Idx) :
    k0_pay1 x0 x1 x2 j = affine x0 x1 x2 j := by
  unfold k0_pay1
  exact block_affine_apply rowsCols none bitsLt_bf16_f32 x0 x1 x2 shapeCasts_S128_S1x128 broadcasts_S1x128_S5000x128 j

/-- The printed index maps, decided once over the twenty grid points: the input and output row blocks move with the
    point, the weights and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point t writes back is block t of the layer of the arrays the region finds. -/
theorem flushed_eq (c : Dev nD) (t : Fin cfg0.N) :
    (dat0 V c).flushed 3 t = ((cfg0.win 3).blk t).view.read (Elt Ideal)
      (affine (V c main_arg0) (V c main_arg8) (V c main_arg9)) := by
  show (cfg0.win 3).cut (grid0.coords t) ((dat0 V c).after 3 t) = _
  rw [after0_3]
  unfold out0_3
  rw [View.canon_unit_zero origin2]
  simp only [View.ld_unit_zero (S := S5000x128) origin2, View.ld_unit_zero (S := S128x128) origin2, View.ld_unit_zero (S := S128) origin1]
  obtain ⟨e0, e1, e2, e3, e4, e5, e6⟩ := idx_facts t
  funext j
  show k0_pay1 (iblk0 V c 0 t) (iblk0 V c 1 t) (iblk0 V c 2 t) j
    = affine (V c main_arg0) (V c main_arg8) (V c main_arg9) (((cfg0.win 3).blk t).view.emb j)
  rw [pay_apply]
  refine affine_of_rows (V c main_arg0) (iblk0 V c 0 t) (V c main_arg8) (iblk0 V c 1 t) (V c main_arg9) (iblk0 V c 2 t) j _ ?_ ?_ ?_
  · intro k
    show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · intro k
    show V c main_arg8 (((cfg0.win 1).blk t).view.emb (ix2 k (j 1))) = V c main_arg8 (ix2 k ((((cfg0.win 3).blk t).view.emb j) 1))
    refine congrArg (V c main_arg8) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · show V c main_arg9 (((cfg0.win 2).blk t).view.emb (ix1 (j 1))) = V c main_arg9 (ix1 ((((cfg0.win 3).blk t).view.emb j) 1))
    refine congrArg (V c main_arg9) (funext fun a => Fin.ext ?_)
    match a with
    | ⟨0, _⟩ => show win0_2.index t (0 : Fin 1) * 128 + 1 * (j 1).val = win0_3.index t (1 : Fin 2) * 128 + 1 * (j 1).val; omega

/-- An index of the output array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0).slice (win0_3.rect t)).set ↔ _
  rw [View.set_slice_whole, Rect.mem_set_unit]
  exact Iff.rfl

/-- Every index of the output array is in the block of the point its row falls in. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by omega⟩, flush0_3 _, ?_⟩
  rw [mem_blk]
  obtain ⟨-, -, -, -, -, e5, e6⟩ := idx_facts ⟨(i 0).val / 5000, by omega⟩
  intro a
  match a with
  | ⟨0, _⟩ => show win0_3.index _ (0 : Fin 2) * 5000 ≤ (i 0).val ∧ (i 0).val < win0_3.index _ (0 : Fin 2) * 5000 + 5000; rw [e5]; show (i 0).val / 5000 * 5000 ≤ _ ∧ _ < (i 0).val / 5000 * 5000 + 5000; omega
  | ⟨1, _⟩ => show win0_3.index _ (1 : Fin 2) * 128 ≤ (i 1).val ∧ (i 1).val < win0_3.index _ (1 : Fin 2) * 128 + 128; rw [e6]; omega

/-- After the region its output array is the layer of the arrays it was entered with. -/
theorem final (c : Dev nD) : (dat0 V c).arrAt 3 cfg0.N = affine (V c main_arg0) (V c main_arg8) (V c main_arg9) :=
  (dat0 V c).arrAt_eq_of_cover 3 _ (fun t _ => flushed_eq V c t) cover

end Cert.KernelIdeal.Whole.Region0

end
-- ==== Proof.Region1.lean ====
/-
  Region 1 of the idealized kernel: a linear layer, one block of 5000 rows per grid point.

  Its four windows are the input rows (block t is rows 5000·t … 5000·t + 4999, all 128 columns), the weights and the
  bias (the whole array at every point) and the output rows (block t, all 128 columns). What point t writes back is
  the layer of its block of input rows, which is that block of rows of the layer of the whole input: a row of x · w + b
  reads the same row of x only. The twenty blocks fill the output array, so after the region it holds the layer of the
  arrays the region was entered with.
-/
import proofs.«108900_j70978629533711_1_alg».proof.Proof.Gen.KernelIdeal.Frame
import proofs.«108900_j70978629533711_1_alg».proof.Proof.Layers
import Idealize.ShloMosaic.Lib.Pipeline.Value

set_option maxRecDepth 16384

noncomputable section

namespace Cert.KernelIdeal.Whole.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Rgcn Cert.Dense

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The printed contraction is rows times columns: it contracts the left operand's columns with the right operand's
    rows. -/
theorem rowsCols : RowsCols dot_S5000x128_S128x128_S5000x128_1_0_0_1_n_n :=
  ⟨rfl, rfl, fun _ _ => rfl, fun _ _ => rfl, fun _ _ => rfl, fun _ _ => rfl⟩

/-- The body's arithmetic on its three loaded blocks is the layer of those blocks, entry by entry. -/
theorem pay_apply (x0 : Vec Ideal S5000x128 .f32) (x1 : Vec Ideal S128x128 .f32) (x2 : Vec Ideal S128 .f32) (j : S5000x128.Idx) :
    k1_pay1 x0 x1 x2 j = affine x0 x1 x2 j := by
  unfold k1_pay1
  exact block_affine_apply rowsCols none bitsLt_bf16_f32 x0 x1 x2 shapeCasts_S128_S1x128 broadcasts_S1x128_S5000x128 j

/-- The printed index maps, decided once over the twenty grid points: the input and output row blocks move with the
    point, the weights and the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point t writes back is block t of the layer of the arrays the region finds. -/
theorem flushed_eq (c : Dev nD) (t : Fin cfg1.N) :
    (dat1 V c).flushed 3 t = ((cfg1.win 3).blk t).view.read (Elt Ideal)
      (affine (V c main_arg0) (V c main_arg10) (V c main_arg11)) := by
  show (cfg1.win 3).cut (grid1.coords t) ((dat1 V c).after 3 t) = _
  rw [after1_3]
  unfold out1_3
  rw [View.canon_unit_zero origin2]
  simp only [View.ld_unit_zero (S := S5000x128) origin2, View.ld_unit_zero (S := S128x128) origin2, View.ld_unit_zero (S := S128) origin1]
  obtain ⟨e0, e1, e2, e3, e4, e5, e6⟩ := idx_facts t
  funext j
  show k1_pay1 (iblk1 V c 0 t) (iblk1 V c 1 t) (iblk1 V c 2 t) j
    = affine (V c main_arg0) (V c main_arg10) (V c main_arg11) (((cfg1.win 3).blk t).view.emb j)
  rw [pay_apply]
  refine affine_of_rows (V c main_arg0) (iblk1 V c 0 t) (V c main_arg10) (iblk1 V c 1 t) (V c main_arg11) (iblk1 V c 2 t) j _ ?_ ?_ ?_
  · intro k
    show V c main_arg0 (((cfg1.win 0).blk t).view.emb (ix2 (j 0) k)) = V c main_arg0 (ix2 ((((cfg1.win 3).blk t).view.emb j) 0) k)
    refine congrArg (V c main_arg0) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  · intro k
    show V c main_arg10 (((cfg1.win 1).blk t).view.emb (ix2 k (j 1))) = V c main_arg10 (ix2 k ((((cfg1.win 3).blk t).view.emb j) 1))
    refine congrArg (V c main_arg10) (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_3.index t (1 : Fin 2) * 128 + 1 * (j 1).val; omega
  · show V c main_arg11 (((cfg1.win 2).blk t).view.emb (ix1 (j 1))) = V c main_arg11 (ix1 ((((cfg1.win 3).blk t).view.emb j) 1))
    refine congrArg (V c main_arg11) (funext fun a => Fin.ext ?_)
    match a with
    | ⟨0, _⟩ => show win1_2.index t (0 : Fin 1) * 128 + 1 * (j 1).val = win1_3.index t (1 : Fin 2) * 128 + 1 * (j 1).val; omega

/-- An index of the output array is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v1).slice (win1_3.rect t)).set ↔ _
  rw [View.set_slice_whole, Rect.mem_set_unit]
  exact Iff.rfl

/-- Every index of the output array is in the block of the point its row falls in. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  refine ⟨⟨(i 0).val / 5000, by omega⟩, flush1_3 _, ?_⟩
  rw [mem_blk]
  obtain ⟨-, -, -, -, -, e5, e6⟩ := idx_facts ⟨(i 0).val / 5000, by omega⟩
  intro a
  match a with
  | ⟨0, _⟩ => show win1_3.index _ (0 : Fin 2) * 5000 ≤ (i 0).val ∧ (i 0).val < win1_3.index _ (0 : Fin 2) * 5000 + 5000; rw [e5]; show (i 0).val / 5000 * 5000 ≤ _ ∧ _ < (i 0).val / 5000 * 5000 + 5000; omega
  | ⟨1, _⟩ => show win1_3.index _ (1 : Fin 2) * 128 ≤ (i 1).val ∧ (i 1).val < win1_3.index _ (1 : Fin 2) * 128 + 128; rw [e6]; omega

/-- After the region its output array is the layer of the arrays it was entered with. -/
theorem final (c : Dev nD) : (dat1 V c).arrAt 3 cfg1.N = affine (V c main_arg0) (V c main_arg10) (V c main_arg11) :=
  (dat1 V c).arrAt_eq_of_cover 3 _ (fun t _ => flushed_eq V c t) cover

end Cert.KernelIdeal.Whole.Region1

end
-- ==== Proof.Region2.lean ====
/-
  Region 2 of the idealized kernel: a linear layer, one block of 5000 rows per grid point.

  Its four windows are the input rows (block t is rows 5000·t … 5000·t + 4999, all 128 columns), the weights and the
  bias (the whole array at every point) and the output rows (block t, all 128 columns). What point t writes back is
  the layer of its block of input rows, which is that block of rows of the layer of the whole input: a row of x · w + b
  reads the same row of x only. The twenty blocks fill the output array, so after the region it holds the layer of the
  arrays the region was entered with.
-/
import proofs.«108900_j70978629533711_1_alg».proof.Proof.Gen.KernelIdeal.Frame
import proofs.«108900_j70978629533711_1_alg».proof.Proof.Layers
import Idealize.ShloMosaic.Lib.Pipeline.Value

set_option maxRecDepth 16384

noncomputable section

namespace Cert.KernelIdeal.Whole.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Rgcn Cert.Dense

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The printed contraction is rows times columns: it contracts the left operand's columns with the right operand's
    rows. -/
theorem rowsCols : RowsCols dot_S5000x128_S128x128_S5000x128_1_0_0_1_n_n :=
  ⟨rfl, rfl, fun _ _ => rfl, fun _ _ => rfl, fun _ _ => rfl, fun _ _ => rfl⟩

/-- The body's arithmetic on its three loaded blocks is the layer of those blocks, entry by entry. -/
theorem pay_apply (x0 : Vec Ideal S5000x128 .f32) (x1 : Vec Ideal S128x128 .f32) (x2 : Vec Ideal S128 .f32) (j : S5000x128.Idx) :
    k2_pay1 x0 x1 x2 j = affine x0 x1 x2 j := by
  unfold k2_pay1
  exact block_affine_apply rowsCols none bitsLt_bf16_f32 x0 x1 x2 shapeCasts_S128_S1x128 broadcasts_S1x128_S5000x128 j

/-- The printed index maps, decided once over the twenty grid points: the input and output row blocks move with the
    point, the weights and the bias stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- What point t writes back is block t of the layer of the arrays the region finds. -/
theorem flushed_eq (c : Dev nD) (t : Fin cfg2.N) :
    (dat2 V c).flushed 3 t = ((cfg2.win 3).blk t).view.read (Elt Ideal)
      (affine (V c main_arg1) (V c main_arg12) (V c main_arg13)) := by
  show (cfg2.win 3).cut (grid2.coords t) ((dat2 V c).after 3 t) = _
  rw [after2_3]
  unfold out2_3
  rw [View.canon_unit_zero origin2]
  simp only [View.ld_unit_zero (S := S5000x128) origin2, View.ld_unit_zero (S := S128x128) origin2, View.ld_unit_zero (S := S128) origin1]
  obtain ⟨e0, e1, e2, e3, e4, e5, e6⟩ := idx_facts t
  funext j
  show k2_pay1 (iblk2 V c 0 t) (iblk2 V c 1 t) (iblk2 V c 2 t) j
    = affine (V c main_arg1) (V c main_arg12) (V c main_arg13) (((cfg2.win 3).blk t).view.emb j)
  rw [pay_apply]
  refine affine_of_rows (V c main_arg1) (iblk2 V c 0 t) (V c main_arg12) (iblk2 V c 1 t) (V c main_arg13) (iblk2 V c 2 t) j _ ?_ ?_ ?_
  · intro k
    show V c main_arg1 (((cfg2.win 0).blk t).view.emb (ix2 (j 0) k)) = V c main_arg1 (ix2 ((((cfg2.win 3).blk t).view.emb j) 0) k)
    refine congrArg (V c main_arg1) (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  · intro k
    show V c main_arg12 (((cfg2.win 1).blk t).view.emb (ix2 k (j 1))) = V c main_arg12 (ix2 k ((((cfg2.win 3).blk t).view.emb j) 1))
    refine congrArg (V c main_arg12) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_3.index t (1 : Fin 2) * 128 + 1 * (j 1).val; omega
  · show V c main_arg13 (((cfg2.win 2).blk t).view.emb (ix1 (j 1))) = V c main_arg13 (ix1 ((((cfg2.win 3).blk t).view.emb j) 1))
    refine congrArg (V c main_arg13) (funext fun a => Fin.ext ?_)
    match a with
    | ⟨0, _⟩ => show win2_2.index t (0 : Fin 1) * 128 + 1 * (j 1).val = win2_3.index t (1 : Fin 2) * 128 + 1 * (j 1).val; omega

/-- An index of the output array is in point t's block iff each coordinate is in the block's range on its axis. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v2).slice (win2_3.rect t)).set ↔ _
  rw [View.set_slice_whole, Rect.mem_set_unit]
  exact Iff.rfl

/-- Every index of the output array is in the block of the point its row falls in. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  refine ⟨⟨(i 0).val / 5000, by omega⟩, flush2_3 _, ?_⟩
  rw [mem_blk]
  obtain ⟨-, -, -, -, -, e5, e6⟩ := idx_facts ⟨(i 0).val / 5000, by omega⟩
  intro a
  match a with
  | ⟨0, _⟩ => show win2_3.index _ (0 : Fin 2) * 5000 ≤ (i 0).val ∧ (i 0).val < win2_3.index _ (0 : Fin 2) * 5000 + 5000; rw [e5]; show (i 0).val / 5000 * 5000 ≤ _ ∧ _ < (i 0).val / 5000 * 5000 + 5000; omega
  | ⟨1, _⟩ => show win2_3.index _ (1 : Fin 2) * 128 ≤ (i 1).val ∧ (i 1).val < win2_3.index _ (1 : Fin 2) * 128 + 128; rw [e6]; omega

/-- After the region its output array is the layer of the arrays it was entered with. -/
theorem final (c : Dev nD) : (dat2 V c).arrAt 3 cfg2.N = affine (V c main_arg1) (V c main_arg12) (V c main_arg13) :=
  (dat2 V c).arrAt_eq_of_cover 3 _ (fun t _ => flushed_eq V c t) cover

end Cert.KernelIdeal.Whole.Region2

end
-- ==== Proof.Region3.lean ====
/-
  Region 3 of the idealized kernel: the entrywise sum of two arrays followed by the rectifier, one block of 5000 rows per grid point.

  Every window's block at point t is rows 5000·t … 5000·t + 4999 and all 128 columns of its array, so the entry the
  body computes at a position of the block is the operation of the arrays' entries at that position of the array. The
  twenty blocks fill the output array, so after the region it holds the operation of the arrays the region was
  entered with, entry by entry.
-/
import proofs.«108900_j70978629533711_1_alg».proof.Proof.Gen.KernelIdeal.Frame
import proofs.«108900_j70978629533711_1_alg».proof.Proof.Layers
import Idealize.ShloMosaic.Lib.Pipeline.Value

set_option maxRecDepth 16384

noncomputable section

namespace Cert.KernelIdeal.Whole.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Rgcn Cert.Dense

variable (V : (c : Dev nD) → (b : Ref sig .tc) → Buf (Elt Ideal) ((c : Thread nD τ).loc b))

theorem origin2 : (![0, 0] : Fin 2 → Nat) = fun _ => 0 := funext fun a => by fin_cases a <;> rfl

/-- The body's arithmetic on its loaded blocks, entry by entry (a cast to the block's own shape is the identity). -/
theorem pay_apply (x0 : Vec Ideal S5000x128 .f32) (x1 : Vec Ideal S5000x128 .f32) (j : S5000x128.Idx) :
    k3_pay1 x0 x1 j = relu (plus x0 x1) j := by
  unfold k3_pay1
  rw [shapeCast_self, shapeCast_self]
  rfl

/-- The printed index maps, decided once over the twenty grid points: every window's row block moves with the point. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point t writes back is block t of the operation of the arrays the region finds. -/
theorem flushed_eq (c : Dev nD) (t : Fin cfg3.N) :
    (dat3 V c).flushed 2 t = ((cfg3.win 2).blk t).view.read (Elt Ideal) (relu (plus (V c main_v21) (V c main_v40))) := by
  show (cfg3.win 2).cut (grid3.coords t) ((dat3 V c).after 2 t) = _
  rw [after3_2]
  unfold out3_2
  rw [View.canon_unit_zero origin2]
  simp only [View.ld_unit_zero (S := S5000x128) origin2]
  obtain ⟨e0, e1, e2, e3, e4, e5⟩ := idx_facts t
  funext j
  show k3_pay1 (iblk3 V c 0 t) (iblk3 V c 1 t) j = (relu (plus (V c main_v21) (V c main_v40))) (((cfg3.win 2).blk t).view.emb j)
  rw [pay_apply]
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb j = ((cfg3.win 2).blk t).view.emb j := by
    funext a; apply Fin.ext
    match a with
    | ⟨0, _⟩ => show win3_1.index t (0 : Fin 2) * 5000 + 1 * (j 0).val = win3_2.index t (0 : Fin 2) * 5000 + 1 * (j 0).val; omega
    | ⟨1, _⟩ => show win3_1.index t (1 : Fin 2) * 128 + 1 * (j 1).val = win3_2.index t (1 : Fin 2) * 128 + 1 * (j 1).val; omega
  refine relu_plus_at (V c main_v21) (V c main_v40) (iblk3 V c 0 t) (iblk3 V c 1 t) j _ ?_ ?_
  · show V c main_v21 (((cfg3.win 0).blk t).view.emb j) = V c main_v21 (((cfg3.win 2).blk t).view.emb j)
    rw [h0]
  · show V c main_v40 (((cfg3.win 1).blk t).view.emb j) = V c main_v40 (((cfg3.win 2).blk t).view.emb j)
    rw [h1]

/-- An index of the output array is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v60).slice (win3_2.rect t)).set ↔ _
  rw [View.set_slice_whole, Rect.mem_set_unit]
  exact Iff.rfl

/-- Every index of the output array is in the block of the point its row falls in. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  refine ⟨⟨(i 0).val / 5000, by omega⟩, flush3_2 _, ?_⟩
  rw [mem_blk]
  obtain ⟨-, -, -, -, e4, e5⟩ := idx_facts ⟨(i 0).val / 5000, by omega⟩
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ _ ∧ _ < (i 0).val / 5000 * 5000 + 5000; omega
  | ⟨1, _⟩ => show win3_2.index _ (1 : Fin 2) * 128 ≤ (i 1).val ∧ (i 1).val < win3_2.index _ (1 : Fin 2) * 128 + 128; rw [e5]; omega

/-- After the region its output array is the operation of the arrays it was entered with. -/
theorem final (c : Dev nD) : (dat3 V c).arrAt 2 cfg3.N = relu (plus (V c main_v21) (V c main_v40)) :=
  (dat3 V c).arrAt_eq_of_cover 2 _ (fun t _ => flushed_eq V c t) cover

end Cert.KernelIdeal.Whole.Region3

end
-- ==== Proof.Region4.lean ====
/-
  Region 4 of the idealized kernel: the rectifier, entry by entry, one block of 5000 rows per grid point.

  Every window's block at point t is rows 5000·t … 5000·t + 4999 and all 128 columns of its array, so the entry the
  body computes at a position of the block is the operation of the arrays' entries at that position of the array. The
  twenty blocks fill the output array, so after the region it holds the operation of the arrays the region was
  entered with, entry by entry.
-/
import proofs.«108900_j70978629533711_1_alg».proof.Proof.Gen.KernelIdeal.Frame
import proofs.«108900_j70978629533711_1_alg».proof.Proof.Layers
import Idealize.ShloMosaic.Lib.Pipeline.Value

set_option maxRecDepth 16384

noncomputable section

namespace Cert.KernelIdeal.Whole.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Rgcn Cert.Dense

variable (V : (c : Dev nD) → (b : Ref sig .tc) → Buf (Elt Ideal) ((c : Thread nD τ).loc b))

theorem origin2 : (![0, 0] : Fin 2 → Nat) = fun _ => 0 := funext fun a => by fin_cases a <;> rfl

/-- The body's arithmetic on its loaded blocks, entry by entry (a cast to the block's own shape is the identity). -/
theorem pay_apply (x0 : Vec Ideal S5000x128 .f32) (j : S5000x128.Idx) :
    k4_pay1 x0 j = relu x0 j := by
  unfold k4_pay1
  rw [shapeCast_self]
  rfl

/-- The printed index maps, decided once over the twenty grid points: every window's row block moves with the point. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- What point t writes back is block t of the operation of the arrays the region finds. -/
theorem flushed_eq (c : Dev nD) (t : Fin cfg4.N) :
    (dat4 V c).flushed 1 t = ((cfg4.win 1).blk t).view.read (Elt Ideal) (relu (V c main_v59)) := by
  show (cfg4.win 1).cut (grid4.coords t) ((dat4 V c).after 1 t) = _
  rw [after4_1]
  unfold out4_1
  rw [View.canon_unit_zero origin2]
  simp only [View.ld_unit_zero (S := S5000x128) origin2]
  obtain ⟨e0, e1, e2, e3⟩ := idx_facts t
  funext j
  show k4_pay1 (iblk4 V c 0 t) j = (relu (V c main_v59)) (((cfg4.win 1).blk t).view.emb j)
  rw [pay_apply]
  have h0 : ((cfg4.win 0).blk t).view.emb j = ((cfg4.win 1).blk t).view.emb j := by
    funext a; apply Fin.ext
    match a with
    | ⟨0, _⟩ => show win4_0.index t (0 : Fin 2) * 5000 + 1 * (j 0).val = win4_1.index t (0 : Fin 2) * 5000 + 1 * (j 0).val; omega
    | ⟨1, _⟩ => show win4_0.index t (1 : Fin 2) * 128 + 1 * (j 1).val = win4_1.index t (1 : Fin 2) * 128 + 1 * (j 1).val; omega
  refine relu_at (V c main_v59) (iblk4 V c 0 t) j _ ?_
  · show V c main_v59 (((cfg4.win 0).blk t).view.emb j) = V c main_v59 (((cfg4.win 1).blk t).view.emb j)
    rw [h0]

/-- An index of the output array is in point t's block iff each coordinate is in the block's range on its axis. -/
theorem mem_blk (t : Fin cfg4.N) (i : S100000x128.Idx) :
    i ∈ ((cfg4.win 1).blk t).view.set ↔ ∀ a : Fin 2, win4_1.index t a * S5000x128.size a ≤ (i a).val ∧ (i a).val < win4_1.index t a * S5000x128.size a + S5000x128.size a := by
  show i ∈ ((View.whole main_v61).slice (win4_1.rect t)).set ↔ _
  rw [View.set_slice_whole, Rect.mem_set_unit]
  exact Iff.rfl

/-- Every index of the output array is in the block of the point its row falls in. -/
theorem cover (i : S100000x128.Idx) : ∃ t : Fin cfg4.N, (cfg4.win 1).flush t = true ∧ i ∈ ((cfg4.win 1).blk t).view.set := by
  have hi0 : (i 0).val < 100000 := (i 0).isLt
  have hi1 : (i 1).val < 128 := (i 1).isLt
  have hN : cfg4.N = 20 := N_4
  refine ⟨⟨(i 0).val / 5000, by omega⟩, flush4_1 _, ?_⟩
  rw [mem_blk]
  obtain ⟨-, -, e2, e3⟩ := idx_facts ⟨(i 0).val / 5000, by omega⟩
  intro a
  match a with
  | ⟨0, _⟩ => show win4_1.index _ (0 : Fin 2) * 5000 ≤ (i 0).val ∧ (i 0).val < win4_1.index _ (0 : Fin 2) * 5000 + 5000; rw [e2]; show (i 0).val / 5000 * 5000 ≤ _ ∧ _ < (i 0).val / 5000 * 5000 + 5000; omega
  | ⟨1, _⟩ => show win4_1.index _ (1 : Fin 2) * 128 ≤ (i 1).val ∧ (i 1).val < win4_1.index _ (1 : Fin 2) * 128 + 128; rw [e3]; omega

/-- After the region its output array is the operation of the arrays it was entered with. -/
theorem final (c : Dev nD) : (dat4 V c).arrAt 1 cfg4.N = relu (V c main_v59) :=
  (dat4 V c).arrAt_eq_of_cover 1 _ (fun t _ => flushed_eq V c t) cover

end Cert.KernelIdeal.Whole.Region4

end
-- ==== Proof.Region5.lean ====
/-
  Region 5 of the idealized kernel: a linear layer, one block of 5000 rows per grid point.

  Its four windows are the input rows (block t is rows 5000·t … 5000·t + 4999, all 128 columns), the weights and the
  bias (the whole array at every point) and the output rows (block t, all 16 columns). What point t writes back is
  the layer of its block of input rows, which is that block of rows of the layer of the whole input: a row of x · w + b
  reads the same row of x only. The twenty blocks fill the output array, so after the region it holds the layer of the
  arrays the region was entered with.
-/
import proofs.«108900_j70978629533711_1_alg».proof.Proof.Gen.KernelIdeal.Frame
import proofs.«108900_j70978629533711_1_alg».proof.Proof.Layers
import Idealize.ShloMosaic.Lib.Pipeline.Value

set_option maxRecDepth 16384

noncomputable section

namespace Cert.KernelIdeal.Whole.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Rgcn Cert.Dense

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The printed contraction is rows times columns: it contracts the left operand's columns with the right operand's
    rows. -/
theorem rowsCols : RowsCols dot_S5000x128_S128x16_S5000x16_1_0_0_1_n_n :=
  ⟨rfl, rfl, fun _ _ => rfl, fun _ _ => rfl, fun _ _ => rfl, fun _ _ => rfl⟩

/-- The body's arithmetic on its three loaded blocks is the layer of those blocks, entry by entry. -/
theorem pay_apply (x0 : Vec Ideal S5000x128 .f32) (x1 : Vec Ideal S128x16 .f32) (x2 : Vec Ideal S16 .f32) (j : S5000x16.Idx) :
    k5_pay1 x0 x1 x2 j = affine x0 x1 x2 j := by
  unfold k5_pay1
  rw [shapeCast_self]
  exact block_affine_apply rowsCols none bitsLt_bf16_f32 x0 x1 x2 shapeCasts_S16_S1x16 broadcasts_S1x16_S5000x16 j

/-- The printed index maps, decided once over the twenty grid points: the input and output row blocks move with the
    point, the weights and the bias stay. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

/-- What point t writes back is block t of the layer of the arrays the region finds. -/
theorem flushed_eq (c : Dev nD) (t : Fin cfg5.N) :
    (dat5 V c).flushed 3 t = ((cfg5.win 3).blk t).view.read (Elt Ideal)
      (affine (V c main_v60) (V c main_arg14) (V c main_arg15)) := by
  show (cfg5.win 3).cut (grid5.coords t) ((dat5 V c).after 3 t) = _
  rw [after5_3]
  unfold out5_3
  rw [View.canon_unit_zero origin2]
  simp only [View.ld_unit_zero (S := S5000x128) origin2, View.ld_unit_zero (S := S128x16) origin2, View.ld_unit_zero (S := S16) origin1]
  obtain ⟨e0, e1, e2, e3, e4, e5, e6⟩ := idx_facts t
  funext j
  show k5_pay1 (iblk5 V c 0 t) (iblk5 V c 1 t) (iblk5 V c 2 t) j
    = affine (V c main_v60) (V c main_arg14) (V c main_arg15) (((cfg5.win 3).blk t).view.emb j)
  rw [pay_apply]
  refine affine_of_rows (V c main_v60) (iblk5 V c 0 t) (V c main_arg14) (iblk5 V c 1 t) (V c main_arg15) (iblk5 V c 2 t) j _ ?_ ?_ ?_
  · intro k
    show V c main_v60 (((cfg5.win 0).blk t).view.emb (ix2 (j 0) k)) = V c main_v60 (ix2 ((((cfg5.win 3).blk t).view.emb j) 0) k)
    refine congrArg (V c main_v60) (funext fun a => Fin.ext ?_)
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 128 + 1 * k.val = k.val; omega
  · intro k
    show V c main_arg14 (((cfg5.win 1).blk t).view.emb (ix2 k (j 1))) = V c main_arg14 (ix2 k ((((cfg5.win 3).blk t).view.emb j) 1))
    refine congrArg (V c main_arg14) (funext fun a => Fin.ext ?_)
    match a with
    | ⟨0, _⟩ => show win5_1.index t (0 : Fin 2) * 128 + 1 * k.val = k.val; omega
    | ⟨1, _⟩ => show win5_1.index t (1 : Fin 2) * 16 + 1 * (j 1).val = win5_3.index t (1 : Fin 2) * 16 + 1 * (j 1).val; omega
  · show V c main_arg15 (((cfg5.win 2).blk t).view.emb (ix1 (j 1))) = V c main_arg15 (ix1 ((((cfg5.win 3).blk t).view.emb j) 1))
    refine congrArg (V c main_arg15) (funext fun a => Fin.ext ?_)
    match a with
    | ⟨0, _⟩ => show win5_2.index t (0 : Fin 1) * 16 + 1 * (j 1).val = win5_3.index t (1 : Fin 2) * 16 + 1 * (j 1).val; omega

/-- An index of the output array is in point t's block iff each coordinate is in the block's range on its axis. -/
theorem mem_blk (t : Fin cfg5.N) (i : S100000x16.Idx) :
    i ∈ ((cfg5.win 3).blk t).view.set ↔ ∀ a : Fin 2, win5_3.index t a * S5000x16.size a ≤ (i a).val ∧ (i a).val < win5_3.index t a * S5000x16.size a + S5000x16.size a := by
  show i ∈ ((View.whole main_v62).slice (win5_3.rect t)).set ↔ _
  rw [View.set_slice_whole, Rect.mem_set_unit]
  exact Iff.rfl

/-- Every index of the output array is in the block of the point its row falls in. -/
theorem cover (i : S100000x16.Idx) : ∃ t : Fin cfg5.N, (cfg5.win 3).flush t = true ∧ i ∈ ((cfg5.win 3).blk t).view.set := by
  have hi0 : (i 0).val < 100000 := (i 0).isLt
  have hi1 : (i 1).val < 16 := (i 1).isLt
  have hN : cfg5.N = 20 := N_5
  refine ⟨⟨(i 0).val / 5000, by omega⟩, flush5_3 _, ?_⟩
  rw [mem_blk]
  obtain ⟨-, -, -, -, -, e5, e6⟩ := idx_facts ⟨(i 0).val / 5000, by omega⟩
  intro a
  match a with
  | ⟨0, _⟩ => show win5_3.index _ (0 : Fin 2) * 5000 ≤ (i 0).val ∧ (i 0).val < win5_3.index _ (0 : Fin 2) * 5000 + 5000; rw [e5]; show (i 0).val / 5000 * 5000 ≤ _ ∧ _ < (i 0).val / 5000 * 5000 + 5000; omega
  | ⟨1, _⟩ => show win5_3.index _ (1 : Fin 2) * 16 ≤ (i 1).val ∧ (i 1).val < win5_3.index _ (1 : Fin 2) * 16 + 16; rw [e6]; omega

/-- After the region its output array is the layer of the arrays it was entered with. -/
theorem final (c : Dev nD) : (dat5 V c).arrAt 3 cfg5.N = affine (V c main_v60) (V c main_arg14) (V c main_arg15) :=
  (dat5 V c).arrAt_eq_of_cover 3 _ (fun t _ => flushed_eq V c t) cover

end Cert.KernelIdeal.Whole.Region5

end
-- ==== Proof.Region6.lean ====
/-
  Region 6 of the idealized kernel: a linear layer, one block of 5000 rows per grid point.

  Its four windows are the input rows (block t is rows 5000·t … 5000·t + 4999, all 128 columns), the weights and the
  bias (the whole array at every point) and the output rows (block t, all 16 columns). What point t writes back is
  the layer of its block of input rows, which is that block of rows of the layer of the whole input: a row of x · w + b
  reads the same row of x only. The twenty blocks fill the output array, so after the region it holds the layer of the
  arrays the region was entered with.
-/
import proofs.«108900_j70978629533711_1_alg».proof.Proof.Gen.KernelIdeal.Frame
import proofs.«108900_j70978629533711_1_alg».proof.Proof.Layers
import Idealize.ShloMosaic.Lib.Pipeline.Value

set_option maxRecDepth 16384

noncomputable section

namespace Cert.KernelIdeal.Whole.Region6

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Rgcn Cert.Dense

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The printed contraction is rows times columns: it contracts the left operand's columns with the right operand's
    rows. -/
theorem rowsCols : RowsCols dot_S5000x128_S128x16_S5000x16_1_0_0_1_n_n :=
  ⟨rfl, rfl, fun _ _ => rfl, fun _ _ => rfl, fun _ _ => rfl, fun _ _ => rfl⟩

/-- The body's arithmetic on its three loaded blocks is the layer of those blocks, entry by entry. -/
theorem pay_apply (x0 : Vec Ideal S5000x128 .f32) (x1 : Vec Ideal S128x16 .f32) (x2 : Vec Ideal S16 .f32) (j : S5000x16.Idx) :
    k6_pay1 x0 x1 x2 j = affine x0 x1 x2 j := by
  unfold k6_pay1
  rw [shapeCast_self]
  exact block_affine_apply rowsCols none bitsLt_bf16_f32 x0 x1 x2 shapeCasts_S16_S1x16 broadcasts_S1x16_S5000x16 j

/-- The printed index maps, decided once over the twenty grid points: the input and output row blocks move with the
    point, the weights and the bias stay. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0 :=
  (by decide +kernel : ∀ t : Fin grid6.N, _)

/-- What point t writes back is block t of the layer of the arrays the region finds. -/
theorem flushed_eq (c : Dev nD) (t : Fin cfg6.N) :
    (dat6 V c).flushed 3 t = ((cfg6.win 3).blk t).view.read (Elt Ideal)
      (affine (V c main_v61) (V c main_arg18) (V c main_arg19)) := by
  show (cfg6.win 3).cut (grid6.coords t) ((dat6 V c).after 3 t) = _
  rw [after6_3]
  unfold out6_3
  rw [View.canon_unit_zero origin2]
  simp only [View.ld_unit_zero (S := S5000x128) origin2, View.ld_unit_zero (S := S128x16) origin2, View.ld_unit_zero (S := S16) origin1]
  obtain ⟨e0, e1, e2, e3, e4, e5, e6⟩ := idx_facts t
  funext j
  show k6_pay1 (iblk6 V c 0 t) (iblk6 V c 1 t) (iblk6 V c 2 t) j
    = affine (V c main_v61) (V c main_arg18) (V c main_arg19) (((cfg6.win 3).blk t).view.emb j)
  rw [pay_apply]
  refine affine_of_rows (V c main_v61) (iblk6 V c 0 t) (V c main_arg18) (iblk6 V c 1 t) (V c main_arg19) (iblk6 V c 2 t) j _ ?_ ?_ ?_
  · intro k
    show V c main_v61 (((cfg6.win 0).blk t).view.emb (ix2 (j 0) k)) = V c main_v61 (ix2 ((((cfg6.win 3).blk t).view.emb j) 0) k)
    refine congrArg (V c main_v61) (funext fun a => Fin.ext ?_)
    match a with
    | ⟨0, _⟩ => show win6_0.index t (0 : Fin 2) * 5000 + 1 * (j 0).val = win6_3.index t (0 : Fin 2) * 5000 + 1 * (j 0).val; omega
    | ⟨1, _⟩ => show win6_0.index t (1 : Fin 2) * 128 + 1 * k.val = k.val; omega
  · intro k
    show V c main_arg18 (((cfg6.win 1).blk t).view.emb (ix2 k (j 1))) = V c main_arg18 (ix2 k ((((cfg6.win 3).blk t).view.emb j) 1))
    refine congrArg (V c main_arg18) (funext fun a => Fin.ext ?_)
    match a with
    | ⟨0, _⟩ => show win6_1.index t (0 : Fin 2) * 128 + 1 * k.val = k.val; omega
    | ⟨1, _⟩ => show win6_1.index t (1 : Fin 2) * 16 + 1 * (j 1).val = win6_3.index t (1 : Fin 2) * 16 + 1 * (j 1).val; omega
  · show V c main_arg19 (((cfg6.win 2).blk t).view.emb (ix1 (j 1))) = V c main_arg19 (ix1 ((((cfg6.win 3).blk t).view.emb j) 1))
    refine congrArg (V c main_arg19) (funext fun a => Fin.ext ?_)
    match a with
    | ⟨0, _⟩ => show win6_2.index t (0 : Fin 1) * 16 + 1 * (j 1).val = win6_3.index t (1 : Fin 2) * 16 + 1 * (j 1).val; omega

/-- An index of the output array is in point t's block iff each coordinate is in the block's range on its axis. -/
theorem mem_blk (t : Fin cfg6.N) (i : S100000x16.Idx) :
    i ∈ ((cfg6.win 3).blk t).view.set ↔ ∀ a : Fin 2, win6_3.index t a * S5000x16.size a ≤ (i a).val ∧ (i a).val < win6_3.index t a * S5000x16.size a + S5000x16.size a := by
  show i ∈ ((View.whole main_v63).slice (win6_3.rect t)).set ↔ _
  rw [View.set_slice_whole, Rect.mem_set_unit]
  exact Iff.rfl

/-- Every index of the output array is in the block of the point its row falls in. -/
theorem cover (i : S100000x16.Idx) : ∃ t : Fin cfg6.N, (cfg6.win 3).flush t = true ∧ i ∈ ((cfg6.win 3).blk t).view.set := by
  have hi0 : (i 0).val < 100000 := (i 0).isLt
  have hi1 : (i 1).val < 16 := (i 1).isLt
  have hN : cfg6.N = 20 := N_6
  refine ⟨⟨(i 0).val / 5000, by omega⟩, flush6_3 _, ?_⟩
  rw [mem_blk]
  obtain ⟨-, -, -, -, -, e5, e6⟩ := idx_facts ⟨(i 0).val / 5000, by omega⟩
  intro a
  match a with
  | ⟨0, _⟩ => show win6_3.index _ (0 : Fin 2) * 5000 ≤ (i 0).val ∧ (i 0).val < win6_3.index _ (0 : Fin 2) * 5000 + 5000; rw [e5]; show (i 0).val / 5000 * 5000 ≤ _ ∧ _ < (i 0).val / 5000 * 5000 + 5000; omega
  | ⟨1, _⟩ => show win6_3.index _ (1 : Fin 2) * 16 ≤ (i 1).val ∧ (i 1).val < win6_3.index _ (1 : Fin 2) * 16 + 16; rw [e6]; omega

/-- After the region its output array is the layer of the arrays it was entered with. -/
theorem final (c : Dev nD) : (dat6 V c).arrAt 3 cfg6.N = affine (V c main_v61) (V c main_arg18) (V c main_arg19) :=
  (dat6 V c).arrAt_eq_of_cover 3 _ (fun t _ => flushed_eq V c t) cover

end Cert.KernelIdeal.Whole.Region6

end
-- ==== Proof.Region7.lean ====
/-
  Region 7 of the idealized kernel: the entrywise sum of two arrays, one block of 5000 rows per grid point.

  Every window's block at point t is rows 5000·t … 5000·t + 4999 and all 16 columns of its array, so the entry the
  body computes at a position of the block is the operation of the arrays' entries at that position of the array. The
  twenty blocks fill the output array, so after the region it holds the operation of the arrays the region was
  entered with, entry by entry.
-/
import proofs.«108900_j70978629533711_1_alg».proof.Proof.Gen.KernelIdeal.Frame
import proofs.«108900_j70978629533711_1_alg».proof.Proof.Layers
import Idealize.ShloMosaic.Lib.Pipeline.Value

set_option maxRecDepth 16384

noncomputable section

namespace Cert.KernelIdeal.Whole.Region7

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Rgcn Cert.Dense

variable (V : (c : Dev nD) → (b : Ref sig .tc) → Buf (Elt Ideal) ((c : Thread nD τ).loc b))

theorem origin2 : (![0, 0] : Fin 2 → Nat) = fun _ => 0 := funext fun a => by fin_cases a <;> rfl

/-- The body's arithmetic on its loaded blocks, entry by entry (a cast to the block's own shape is the identity). -/
theorem pay_apply (x0 : Vec Ideal S5000x16 .f32) (x1 : Vec Ideal S5000x16 .f32) (j : S5000x16.Idx) :
    k7_pay1 x0 x1 j = plus x0 x1 j := by
  unfold k7_pay1
  rw [shapeCast_self, shapeCast_self]
  rfl

/-- The printed index maps, decided once over the twenty grid points: every window's row block moves with the point. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- What point t writes back is block t of the operation of the arrays the region finds. -/
theorem flushed_eq (c : Dev nD) (t : Fin cfg7.N) :
    (dat7 V c).flushed 2 t = ((cfg7.win 2).blk t).view.read (Elt Ideal) (plus (V c main_v82) (V c main_v101)) := by
  show (cfg7.win 2).cut (grid7.coords t) ((dat7 V c).after 2 t) = _
  rw [after7_2]
  unfold out7_2
  rw [View.canon_unit_zero origin2]
  simp only [View.ld_unit_zero (S := S5000x16) origin2]
  obtain ⟨e0, e1, e2, e3, e4, e5⟩ := idx_facts t
  funext j
  show k7_pay1 (iblk7 V c 0 t) (iblk7 V c 1 t) j = (plus (V c main_v82) (V c main_v101)) (((cfg7.win 2).blk t).view.emb j)
  rw [pay_apply]
  have h0 : ((cfg7.win 0).blk t).view.emb j = ((cfg7.win 2).blk t).view.emb j := by
    funext a; apply Fin.ext
    match a with
    | ⟨0, _⟩ => show win7_0.index t (0 : Fin 2) * 5000 + 1 * (j 0).val = win7_2.index t (0 : Fin 2) * 5000 + 1 * (j 0).val; omega
    | ⟨1, _⟩ => show win7_0.index t (1 : Fin 2) * 16 + 1 * (j 1).val = win7_2.index t (1 : Fin 2) * 16 + 1 * (j 1).val; omega
  have h1 : ((cfg7.win 1).blk t).view.emb j = ((cfg7.win 2).blk t).view.emb j := by
    funext a; apply Fin.ext
    match a with
    | ⟨0, _⟩ => show win7_1.index t (0 : Fin 2) * 5000 + 1 * (j 0).val = win7_2.index t (0 : Fin 2) * 5000 + 1 * (j 0).val; omega
    | ⟨1, _⟩ => show win7_1.index t (1 : Fin 2) * 16 + 1 * (j 1).val = win7_2.index t (1 : Fin 2) * 16 + 1 * (j 1).val; omega
  refine plus_at (V c main_v82) (V c main_v101) (iblk7 V c 0 t) (iblk7 V c 1 t) j _ ?_ ?_
  · show V c main_v82 (((cfg7.win 0).blk t).view.emb j) = V c main_v82 (((cfg7.win 2).blk t).view.emb j)
    rw [h0]
  · show V c main_v101 (((cfg7.win 1).blk t).view.emb j) = V c main_v101 (((cfg7.win 2).blk t).view.emb j)
    rw [h1]

/-- An index of the output array is in point t's block iff each coordinate is in the block's range on its axis. -/
theorem mem_blk (t : Fin cfg7.N) (i : S100000x16.Idx) :
    i ∈ ((cfg7.win 2).blk t).view.set ↔ ∀ a : Fin 2, win7_2.index t a * S5000x16.size a ≤ (i a).val ∧ (i a).val < win7_2.index t a * S5000x16.size a + S5000x16.size a := by
  show i ∈ ((View.whole main_v102).slice (win7_2.rect t)).set ↔ _
  rw [View.set_slice_whole, Rect.mem_set_unit]
  exact Iff.rfl

/-- Every index of the output array is in the block of the point its row falls in. -/
theorem cover (i : S100000x16.Idx) : ∃ t : Fin cfg7.N, (cfg7.win 2).flush t = true ∧ i ∈ ((cfg7.win 2).blk t).view.set := by
  have hi0 : (i 0).val < 100000 := (i 0).isLt
  have hi1 : (i 1).val < 16 := (i 1).isLt
  have hN : cfg7.N = 20 := N_7
  refine ⟨⟨(i 0).val / 5000, by omega⟩, flush7_2 _, ?_⟩
  rw [mem_blk]
  obtain ⟨-, -, -, -, e4, e5⟩ := idx_facts ⟨(i 0).val / 5000, by omega⟩
  intro a
  match a with
  | ⟨0, _⟩ => show win7_2.index _ (0 : Fin 2) * 5000 ≤ (i 0).val ∧ (i 0).val < win7_2.index _ (0 : Fin 2) * 5000 + 5000; rw [e4]; show (i 0).val / 5000 * 5000 ≤ _ ∧ _ < (i 0).val / 5000 * 5000 + 5000; omega
  | ⟨1, _⟩ => show win7_2.index _ (1 : Fin 2) * 16 ≤ (i 1).val ∧ (i 1).val < win7_2.index _ (1 : Fin 2) * 16 + 16; rw [e5]; omega

/-- After the region its output array is the operation of the arrays it was entered with. -/
theorem final (c : Dev nD) : (dat7 V c).arrAt 2 cfg7.N = plus (V c main_v82) (V c main_v101) :=
  (dat7 V c).arrAt_eq_of_cover 2 _ (fun t _ => flushed_eq V c t) cover

end Cert.KernelIdeal.Whole.Region7

end
-- ==== Proof.KernelFold.lean ====
/-
  The idealized kernel's result, read back through the fold of buffer contents.

  Boundary by boundary: an argument array is written by nothing, so at every boundary it holds its launch contents;
  a region's output array holds, from the region's exit on, the region's layer of the arrays the region was entered
  with (until something writes it again: nothing does); a host stretch leaves in its result buffers the mean
  aggregation of the buffers it reads. Composed, the result buffer after the last region is

      plus (meanAgg16 (affine hU W1uu b1uu) src_uu dst_uu) (meanAgg16 (affine hI W1iu b1iu) src_iu dst_iu)

  with hU = relu (plus (meanAgg128 (affine user W0uu b0uu) src_uu dst_uu) (meanAgg128 (affine item W0iu b0iu) src_iu dst_iu))
  and hI = relu (meanAgg128 (affine user W0ui b0ui) src_ui dst_ui): the two-layer network of the launch arrays.
-/
import proofs.«108900_j70978629533711_1_alg».proof.Proof.Gen.KernelIdeal.Frame
import proofs.«108900_j70978629533711_1_alg».proof.Proof.Layers
import proofs.«108900_j70978629533711_1_alg».proof.Proof.KernelHost
import proofs.«108900_j70978629533711_1_alg».proof.Proof.Region0
import proofs.«108900_j70978629533711_1_alg».proof.Proof.Region1
import proofs.«108900_j70978629533711_1_alg».proof.Proof.Region2
import proofs.«108900_j70978629533711_1_alg».proof.Proof.Region3
import proofs.«108900_j70978629533711_1_alg».proof.Proof.Region4
import proofs.«108900_j70978629533711_1_alg».proof.Proof.Region5
import proofs.«108900_j70978629533711_1_alg».proof.Proof.Region6
import proofs.«108900_j70978629533711_1_alg».proof.Proof.Region7

set_option maxRecDepth 16384

noncomputable section

namespace Cert.KernelIdeal.Whole

open Cert.KernelIdeal Cert.KernelIdeal.Gen
open Idealize.ShloMosaic Idealize.ShloMosaic.TcCoe Idealize.SL.Sem
open Cert.Rgcn Cert.Dense

variable (m : (ℓ : Loc nD τ sig) → Buf (Elt Ideal) ℓ) (ρ : Dev nD → PrngReg) (c : Dev nD)

/-! ## The three first-layer projections, the two hidden arrays, the two second-layer projections -/

/-- The user→user projection of the user embeddings. -/
def proj_uu : S100000x128.Idx → EReal := affine (m ((c : Thread nD τ).loc main_arg0)) (m ((c : Thread nD τ).loc main_arg8)) (m ((c : Thread nD τ).loc main_arg9))
/-- The user→item projection of the user embeddings. -/
def proj_ui : S100000x128.Idx → EReal := affine (m ((c : Thread nD τ).loc main_arg0)) (m ((c : Thread nD τ).loc main_arg10)) (m ((c : Thread nD τ).loc main_arg11))
/-- The item→user projection of the item embeddings. -/
def proj_iu : S100000x128.Idx → EReal := affine (m ((c : Thread nD τ).loc main_arg1)) (m ((c : Thread nD τ).loc main_arg12)) (m ((c : Thread nD τ).loc main_arg13))
/-- The hidden array of the user nodes. -/
def hid_user : S100000x128.Idx → EReal :=
  relu (plus (meanAgg128 (F := Ideal) (proj_uu m c) (m ((c : Thread nD τ).loc main_arg2)) (m ((c : Thread nD τ).loc main_arg3))) (meanAgg128 (F := Ideal) (proj_iu m c) (m ((c : Thread nD τ).loc main_arg6)) (m ((c : Thread nD τ).loc main_arg7))))
/-- The hidden array of the item nodes. -/
def hid_item : S100000x128.Idx → EReal := relu (meanAgg128 (F := Ideal) (proj_ui m c) (m ((c : Thread nD τ).loc main_arg4)) (m ((c : Thread nD τ).loc main_arg5)))
/-- The second layer's user→user projection. -/
def out_uu : S100000x16.Idx → EReal := affine (hid_user m c) (m ((c : Thread nD τ).loc main_arg14)) (m ((c : Thread nD τ).loc main_arg15))
/-- The second layer's item→user projection. -/
def out_iu : S100000x16.Idx → EReal := affine (hid_item m c) (m ((c : Thread nD τ).loc main_arg18)) (m ((c : Thread nD τ).loc main_arg19))
/-- The network's result. -/
def network : S100000x16.Idx → EReal :=
  plus (meanAgg16 (F := Ideal) (out_uu m c) (m ((c : Thread nD τ).loc main_arg2)) (m ((c : Thread nD τ).loc main_arg3))) (meanAgg16 (F := Ideal) (out_iu m c) (m ((c : Thread nD τ).loc main_arg6)) (m ((c : Thread nD τ).loc main_arg7)))

/-! ## A buffer nothing writes keeps its launch contents -/

/-- Through the first three regions. -/
theorem kept3 (b : Ref sig .tc) (h0 : ∀ w, Pipeline.arrRef spec0 w ≠ b) (h1 : ∀ w, Pipeline.arrRef spec1 w ≠ b)
    (h2 : ∀ w, Pipeline.arrRef spec2 w ≠ b) : W3 m ρ c (Proc.devRef .tc b) = m ((c : Thread nD τ).loc b) :=
  (W3_of_ne m ρ c b h2).trans ((W2_of_ne m ρ c b h1).trans ((W1_of_ne m ρ c b h0).trans rfl))

/-- From the first host stretch's end through regions 3 to 6. -/
theorem kept8 (b : Ref sig .tc) (h3 : ∀ w, Pipeline.arrRef spec3 w ≠ b) (h4 : ∀ w, Pipeline.arrRef spec4 w ≠ b)
    (h5 : ∀ w, Pipeline.arrRef spec5 w ≠ b) (h6 : ∀ w, Pipeline.arrRef spec6 w ≠ b) :
    W8 m ρ c (Proc.devRef .tc b) = W4 m ρ c (Proc.devRef .tc b) :=
  (W8_of_ne m ρ c b h6).trans ((W7_of_ne m ρ c b h5).trans ((W6_of_ne m ρ c b h4).trans (W5_of_ne m ρ c b h3)))

theorem W3_arg2 : W3 m ρ c (Proc.devRef .tc main_arg2) = (m ((c : Thread nD τ).loc main_arg2)) := kept3 m ρ c main_arg2 (by decide) (by decide) (by decide)
theorem W3_arg3 : W3 m ρ c (Proc.devRef .tc main_arg3) = (m ((c : Thread nD τ).loc main_arg3)) := kept3 m ρ c main_arg3 (by decide) (by decide) (by decide)
theorem W3_arg4 : W3 m ρ c (Proc.devRef .tc main_arg4) = (m ((c : Thread nD τ).loc main_arg4)) := kept3 m ρ c main_arg4 (by decide) (by decide) (by decide)
theorem W3_arg5 : W3 m ρ c (Proc.devRef .tc main_arg5) = (m ((c : Thread nD τ).loc main_arg5)) := kept3 m ρ c main_arg5 (by decide) (by decide) (by decide)
theorem W3_arg6 : W3 m ρ c (Proc.devRef .tc main_arg6) = (m ((c : Thread nD τ).loc main_arg6)) := kept3 m ρ c main_arg6 (by decide) (by decide) (by decide)
theorem W3_arg7 : W3 m ρ c (Proc.devRef .tc main_arg7) = (m ((c : Thread nD τ).loc main_arg7)) := kept3 m ρ c main_arg7 (by decide) (by decide) (by decide)

theorem W4_arg14 : W4 m ρ c (Proc.devRef .tc main_arg14) = (m ((c : Thread nD τ).loc main_arg14)) :=
  (StableHlo.after_of_forall_not_mem (b := Proc.devRef .tc main_arg14) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept3 m ρ c main_arg14 (by decide) (by decide) (by decide))
theorem W4_arg15 : W4 m ρ c (Proc.devRef .tc main_arg15) = (m ((c : Thread nD τ).loc main_arg15)) :=
  (StableHlo.after_of_forall_not_mem (b := Proc.devRef .tc main_arg15) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept3 m ρ c main_arg15 (by decide) (by decide) (by decide))
theorem W4_arg18 : W4 m ρ c (Proc.devRef .tc main_arg18) = (m ((c : Thread nD τ).loc main_arg18)) :=
  (StableHlo.after_of_forall_not_mem (b := Proc.devRef .tc main_arg18) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept3 m ρ c main_arg18 (by decide) (by decide) (by decide))
theorem W4_arg19 : W4 m ρ c (Proc.devRef .tc main_arg19) = (m ((c : Thread nD τ).loc main_arg19)) :=
  (StableHlo.after_of_forall_not_mem (b := Proc.devRef .tc main_arg19) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (kept3 m ρ c main_arg19 (by decide) (by decide) (by decide))
theorem W4_arg2 : W4 m ρ c (Proc.devRef .tc main_arg2) = (m ((c : Thread nD τ).loc main_arg2)) :=
  (StableHlo.after_of_forall_not_mem (b := Proc.devRef .tc main_arg2) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg2 m ρ c)
theorem W4_arg3 : W4 m ρ c (Proc.devRef .tc main_arg3) = (m ((c : Thread nD τ).loc main_arg3)) :=
  (StableHlo.after_of_forall_not_mem (b := Proc.devRef .tc main_arg3) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg3 m ρ c)
theorem W4_arg6 : W4 m ρ c (Proc.devRef .tc main_arg6) = (m ((c : Thread nD τ).loc main_arg6)) :=
  (StableHlo.after_of_forall_not_mem (b := Proc.devRef .tc main_arg6) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg6 m ρ c)
theorem W4_arg7 : W4 m ρ c (Proc.devRef .tc main_arg7) = (m ((c : Thread nD τ).loc main_arg7)) :=
  (StableHlo.after_of_forall_not_mem (b := Proc.devRef .tc main_arg7) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg7 m ρ c)

/-! ## The first layer's projections (regions 0, 1, 2), at the boundary the first host stretch starts from -/

theorem W1_v0 : W1 m ρ c (Proc.devRef .tc main_v0) = proj_uu m c :=
  (W1_arr m ρ c 3).trans (Region0.final (V0 m ρ) c)

theorem W2_v1 : W2 m ρ c (Proc.devRef .tc main_v1) = proj_ui m c := by
  refine (W2_arr m ρ c 3).trans ((Region1.final (V1 m ρ) c).trans ?_)
  show affine (W1 m ρ c (Proc.devRef .tc main_arg0)) (W1 m ρ c (Proc.devRef .tc main_arg10)) (W1 m ρ c (Proc.devRef .tc main_arg11)) = _
  -- the user embeddings are region 0's input window 0: an input window's array is not written
  have e0 : W1 m ρ c (Proc.devRef .tc main_arg0) = W0 m ρ c (Proc.devRef .tc main_arg0) :=
    (W1_arr m ρ c 0).trans (((dat0 (V0 m ρ) c).arrAt_in 0 rfl _).trans (A_eq0 (V0 m ρ) c 0))
  rw [e0, W1_of_ne m ρ c main_arg10 (by decide), W1_of_ne m ρ c main_arg11 (by decide)]
  rfl

theorem W3_v2 : W3 m ρ c (Proc.devRef .tc main_v2) = proj_iu m c := by
  refine (W3_arr m ρ c 3).trans ((Region2.final (V2 m ρ) c).trans ?_)
  show affine (W2 m ρ c (Proc.devRef .tc main_arg1)) (W2 m ρ c (Proc.devRef .tc main_arg12)) (W2 m ρ c (Proc.devRef .tc main_arg13)) = _
  rw [W2_of_ne m ρ c main_arg1 (by decide), W2_of_ne m ρ c main_arg12 (by decide), W2_of_ne m ρ c main_arg13 (by decide),
    W1_of_ne m ρ c main_arg1 (by decide), W1_of_ne m ρ c main_arg12 (by decide), W1_of_ne m ρ c main_arg13 (by decide)]
  rfl

theorem W3_v0 : W3 m ρ c (Proc.devRef .tc main_v0) = proj_uu m c :=
  (W3_of_ne m ρ c main_v0 (by decide)).trans ((W2_of_ne m ρ c main_v0 (by decide)).trans (W1_v0 m ρ c))

theorem W3_v1 : W3 m ρ c (Proc.devRef .tc main_v1) = proj_ui m c :=
  (W3_of_ne m ρ c main_v1 (by decide)).trans (W2_v1 m ρ c)

/-! ## The first host stretch: the three aggregations -/

theorem W4_v21 : W4 m ρ c (Proc.devRef .tc main_v21) = meanAgg128 (F := Ideal) (proj_uu m c) (m ((c : Thread nD τ).loc main_arg2)) (m ((c : Thread nD τ).loc main_arg3)) := by
  show StableHlo.after hostOps3 (W3 m ρ c) (Proc.devRef .tc main_v21) = _
  rw [host3_v21, W3_v0, W3_arg2, W3_arg3]

theorem W4_v40 : W4 m ρ c (Proc.devRef .tc main_v40) = meanAgg128 (F := Ideal) (proj_iu m c) (m ((c : Thread nD τ).loc main_arg6)) (m ((c : Thread nD τ).loc main_arg7)) := by
  show StableHlo.after hostOps3 (W3 m ρ c) (Proc.devRef .tc main_v40) = _
  rw [host3_v40, W3_v2, W3_arg6, W3_arg7]

theorem W4_v59 : W4 m ρ c (Proc.devRef .tc main_v59) = meanAgg128 (F := Ideal) (proj_ui m c) (m ((c : Thread nD τ).loc main_arg4)) (m ((c : Thread nD τ).loc main_arg5)) := by
  show StableHlo.after hostOps3 (W3 m ρ c) (Proc.devRef .tc main_v59) = _
  rw [host3_v59, W3_v1, W3_arg4, W3_arg5]

/-! ## The hidden arrays (regions 3 and 4) and the second layer's projections (regions 5 and 6) -/

theorem W5_v60 : W5 m ρ c (Proc.devRef .tc main_v60) = hid_user m c := by
  refine (W5_arr m ρ c 2).trans ((Region3.final (V4 m ρ) c).trans ?_)
  show relu (plus (W4 m ρ c (Proc.devRef .tc main_v21)) (W4 m ρ c (Proc.devRef .tc main_v40))) = _
  rw [W4_v21, W4_v40]
  rfl

theorem W6_v61 : W6 m ρ c (Proc.devRef .tc main_v61) = hid_item m c := by
  refine (W6_arr m ρ c 1).trans ((Region4.final (V5 m ρ) c).trans ?_)
  show relu (W5 m ρ c (Proc.devRef .tc main_v59)) = _
  rw [W5_of_ne m ρ c main_v59 (by decide), W4_v59]
  rfl

theorem W7_v62 : W7 m ρ c (Proc.devRef .tc main_v62) = out_uu m c := by
  refine (W7_arr m ρ c 3).trans ((Region5.final (V6 m ρ) c).trans ?_)
  show affine (W6 m ρ c (Proc.devRef .tc main_v60)) (W6 m ρ c (Proc.devRef .tc main_arg14)) (W6 m ρ c (Proc.devRef .tc main_arg15)) = _
  rw [W6_of_ne m ρ c main_v60 (by decide), W5_v60,
    W6_of_ne m ρ c main_arg14 (by decide), W5_of_ne m ρ c main_arg14 (by decide), W4_arg14,
    W6_of_ne m ρ c main_arg15 (by decide), W5_of_ne m ρ c main_arg15 (by decide), W4_arg15]
  rfl

theorem W8_v63 : W8 m ρ c (Proc.devRef .tc main_v63) = out_iu m c := by
  refine (W8_arr m ρ c 3).trans ((Region6.final (V7 m ρ) c).trans ?_)
  show affine (W7 m ρ c (Proc.devRef .tc main_v61)) (W7 m ρ c (Proc.devRef .tc main_arg18)) (W7 m ρ c (Proc.devRef .tc main_arg19)) = _
  rw [W7_of_ne m ρ c main_v61 (by decide), W6_v61,
    W7_of_ne m ρ c main_arg18 (by decide), W6_of_ne m ρ c main_arg18 (by decide), W5_of_ne m ρ c main_arg18 (by decide), W4_arg18,
    W7_of_ne m ρ c main_arg19 (by decide), W6_of_ne m ρ c main_arg19 (by decide), W5_of_ne m ρ c main_arg19 (by decide), W4_arg19]
  rfl

/-! ## The second host stretch and the last region -/

theorem W9_v82 : W9 m ρ c (Proc.devRef .tc main_v82) = meanAgg16 (F := Ideal) (out_uu m c) (m ((c : Thread nD τ).loc main_arg2)) (m ((c : Thread nD τ).loc main_arg3)) := by
  show StableHlo.after hostOps7 (W8 m ρ c) (Proc.devRef .tc main_v82) = _
  rw [host7_v82, W8_of_ne m ρ c main_v62 (by decide), W7_v62,
    kept8 m ρ c main_arg2 (by decide) (by decide) (by decide) (by decide), W4_arg2,
    kept8 m ρ c main_arg3 (by decide) (by decide) (by decide) (by decide), W4_arg3]

theorem W9_v101 : W9 m ρ c (Proc.devRef .tc main_v101) = meanAgg16 (F := Ideal) (out_iu m c) (m ((c : Thread nD τ).loc main_arg6)) (m ((c : Thread nD τ).loc main_arg7)) := by
  show StableHlo.after hostOps7 (W8 m ρ c) (Proc.devRef .tc main_v101) = _
  rw [host7_v101, W8_v63,
    kept8 m ρ c main_arg6 (by decide) (by decide) (by decide) (by decide), W4_arg6,
    kept8 m ρ c main_arg7 (by decide) (by decide) (by decide) (by decide), W4_arg7]

/-- The result buffer after the last region is the network of the launch arrays. -/
theorem W10_v102 : W10 m ρ c (Proc.devRef .tc main_v102) = network m c := by
  refine (W10_arr m ρ c 2).trans ((Region7.final (V9 m ρ) c).trans ?_)
  show plus (W9 m ρ c (Proc.devRef .tc main_v82)) (W9 m ρ c (Proc.devRef .tc main_v101)) = _
  rw [W9_v82, W9_v101]
  rfl

/-- The same, with the network as one function of the launch arrays. -/
theorem W10_v102_of : W10 m ρ c (Proc.devRef .tc main_v102) = networkOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg18)) (m ((c : Thread nD τ).loc main_arg19)) :=
  (W10_v102 m ρ c).trans rfl

end Cert.KernelIdeal.Whole

end
-- ==== Proof.Reference.lean ====
/-
  The reference's result as layers.

  The generated run states the reference's result as one composed term of the argument arrays. Regrouped (nothing
  is computed: the term is the same, its pieces named), it is: for each of the three edge types a linear layer of the
  node embeddings followed by the mean over incoming edges; the two aggregations arriving at user nodes added and
  rectified, the one arriving at item nodes rectified; then, for the two edge types arriving at user nodes, a second
  linear layer of those hidden arrays followed by the mean over incoming edges; and the two added.

  On the extended reals each linear layer (the host's dot_general plus the bias repeated by two broadcasts) is the
  function `affine`, the rectifier `relu`, the sums `plus`. The mean over incoming edges is kept as one function of
  its table and its two index vectors and is never opened: the kernel's host operations apply the same one.
-/
import proofs.«108900_j70978629533711_1_alg».proof.Proof.Gen.ReferenceIdeal.Run
import proofs.«108900_j70978629533711_1_alg».proof.Proof.Layers

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo
open Cert.Rgcn Cert.Dense

section AnyFloat

variable {F : FTy → Type} [FloatOps F]

/-- The mean over incoming edges of a table of 128-wide rows: row r of the result is the sum of the table's rows
    src(e) over the edges e with dst(e) = r, divided by max(number of such edges, 1). -/
def meanAgg128 (x : FVec F S100000x128 .f32) (src dst : IVec S600000 32) : FVec F S100000x128 .f32 :=
  Host.divf
    (Host.scatterAdd scatter_S100000x128_S600000x1_S600000x128_1_0_0_1
      (broadcastInDim S100000x128 ![] bcast_S_S100000x128 (constant S_ .f32 0x00000000#32))
      (broadcastInDim S600000x1 ![0] bcast_S600000_S600000x1_0 dst)
      (Host.gather gather_S100000x128_S600000x1_S600000x128_1_0_n_n_0_1_1128 x
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S600000x1_S600000_n_0_0_1
            (broadcastInDim S100000 ![] bcast_S_S100000 (constant S_ .f32 0x00000000#32))
            (broadcastInDim S600000x1 ![0] bcast_S600000_S600000x1_0 dst)
            (broadcastInDim S600000 ![] bcast_S_S600000 (constant S_ .f32 0x3F800000#32)))
          (broadcastInDim S100000 ![] bcast_S_S100000 (constant S_ .f32 0x3F800000#32)))))

/-- The same mean over incoming edges, of a table of 16-wide rows. -/
def meanAgg16 (x : FVec F S100000x16 .f32) (src dst : IVec S600000 32) : FVec F S100000x16 .f32 :=
  Host.divf
    (Host.scatterAdd scatter_S100000x16_S600000x1_S600000x16_1_0_0_1
      (broadcastInDim S100000x16 ![] bcast_S_S100000x16 (constant S_ .f32 0x00000000#32))
      (broadcastInDim S600000x1 ![0] bcast_S600000_S600000x1_0 dst)
      (Host.gather gather_S100000x16_S600000x1_S600000x16_1_0_n_n_0_1_116 x
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 100000#32))) src))))
    (broadcastInDim S100000x16 ![0, 1] bcast_S100000x1_S100000x16_0_1
      (broadcastInDim S100000x1 ![0] bcast_S100000_S100000x1_0
        (maximumf
          (Host.scatterAdd scatter_S100000_S600000x1_S600000_n_0_0_1
            (broadcastInDim S100000 ![] bcast_S_S100000 (constant S_ .f32 0x00000000#32))
            (broadcastInDim S600000x1 ![0] bcast_S600000_S600000x1_0 dst)
            (broadcastInDim S600000 ![] bcast_S_S600000 (constant S_ .f32 0x3F800000#32)))
          (broadcastInDim S100000 ![] bcast_S_S100000 (constant S_ .f32 0x3F800000#32)))))

/-- The first layer's linear map as the reference spells it. -/
def lin128 (x : FVec F S100000x128 .f32) (w : FVec F S128x128 .f32) (b : FVec F S128 .f32) : FVec F S100000x128 .f32 :=
  addf (Host.dotGeneral dot_S100000x128_S128x128_S100000x128_1_0_0_1_n_n none x w)
    (broadcastInDim S100000x128 ![0, 1] bcast_S1x128_S100000x128_0_1 (broadcastInDim S1x128 ![1] bcast_S128_S1x128_1 b))

/-- The second layer's linear map as the reference spells it. -/
def lin16 (x : FVec F S100000x128 .f32) (w : FVec F S128x16 .f32) (b : FVec F S16 .f32) : FVec F S100000x16 .f32 :=
  addf (Host.dotGeneral dot_S100000x128_S128x16_S100000x16_1_0_0_1_n_n none x w)
    (broadcastInDim S100000x16 ![0, 1] bcast_S1x16_S100000x16_0_1 (broadcastInDim S1x16 ![1] bcast_S16_S1x16_1 b))

/-- The rectifier as the reference spells it: the maximum with a broadcast zero. -/
def hostRelu (x : FVec F S100000x128 .f32) : FVec F S100000x128 .f32 :=
  maximumf x (broadcastInDim S100000x128 ![] bcast_S_S100000x128 (constant S_ .f32 0x00000000#32))

/-- The run's composed term, its pieces named. -/
theorem res_regrouped (m : (ℓ : Loc nD τ sig) → Buf (Elt F) ℓ) (c : Dev nD) :
    res_main_v118 (F := F) m c
      = addf
          (meanAgg16 (lin16 (hostRelu (addf (meanAgg128 (lin128 (m ((c.tc : Thread nD τ).loc main_arg0)) (m ((c.tc : Thread nD τ).loc main_arg8)) (m ((c.tc : Thread nD τ).loc main_arg9))) (m ((c.tc : Thread nD τ).loc main_arg2)) (m ((c.tc : Thread nD τ).loc main_arg3)))
              (meanAgg128 (lin128 (m ((c.tc : Thread nD τ).loc main_arg1)) (m ((c.tc : Thread nD τ).loc main_arg12)) (m ((c.tc : Thread nD τ).loc main_arg13))) (m ((c.tc : Thread nD τ).loc main_arg6)) (m ((c.tc : Thread nD τ).loc main_arg7))))) (m ((c.tc : Thread nD τ).loc main_arg14)) (m ((c.tc : Thread nD τ).loc main_arg15))) (m ((c.tc : Thread nD τ).loc main_arg2)) (m ((c.tc : Thread nD τ).loc main_arg3)))
          (meanAgg16 (lin16 (hostRelu (meanAgg128 (lin128 (m ((c.tc : Thread nD τ).loc main_arg0)) (m ((c.tc : Thread nD τ).loc main_arg10)) (m ((c.tc : Thread nD τ).loc main_arg11))) (m ((c.tc : Thread nD τ).loc main_arg4)) (m ((c.tc : Thread nD τ).loc main_arg5)))) (m ((c.tc : Thread nD τ).loc main_arg18)) (m ((c.tc : Thread nD τ).loc main_arg19))) (m ((c.tc : Thread nD τ).loc main_arg6)) (m ((c.tc : Thread nD τ).loc main_arg7))) := by
  unfold res_main_v118 meanAgg16 meanAgg128 lin16 lin128 hostRelu
  rfl

end AnyFloat

/-- The first layer's contraction is rows times columns. -/
theorem rowsCols128 : RowsCols dot_S100000x128_S128x128_S100000x128_1_0_0_1_n_n :=
  ⟨rfl, rfl, fun _ _ => rfl, fun _ _ => rfl, fun _ _ => rfl, fun _ _ => rfl⟩

/-- The second layer's contraction is rows times columns. -/
theorem rowsCols16 : RowsCols dot_S100000x128_S128x16_S100000x16_1_0_0_1_n_n :=
  ⟨rfl, rfl, fun _ _ => rfl, fun _ _ => rfl, fun _ _ => rfl, fun _ _ => rfl⟩

theorem lin128_eq (x : FVec Ideal S100000x128 .f32) (w : FVec Ideal S128x128 .f32) (b : FVec Ideal S128 .f32) :
    lin128 x w b = affine x w b :=
  host_affine_eq rowsCols128 none x w b bcast_S128_S1x128_1 bcast_S1x128_S100000x128_0_1

theorem lin16_eq (x : FVec Ideal S100000x128 .f32) (w : FVec Ideal S128x16 .f32) (b : FVec Ideal S16 .f32) :
    lin16 x w b = affine x w b :=
  host_affine_eq rowsCols16 none x w b bcast_S16_S1x16_1 bcast_S1x16_S100000x16_0_1

theorem hostRelu_eq (x : FVec Ideal S100000x128 .f32) : hostRelu x = relu x :=
  host_relu_eq x bcast_S_S100000x128

/-- The two-layer network as one function of the argument arrays it reads (the reference never reads the user→item weights of the second layer): two layers of per-edge-type linear maps, each followed by the mean over incoming edges, the aggregations arriving at one node type added, a rectifier between the layers. -/
def networkOf (a0 a1 : FVec Ideal S100000x128 .f32) (a2 a3 a4 a5 a6 a7 : IVec S600000 32)
    (a8 : FVec Ideal S128x128 .f32) (a9 : FVec Ideal S128 .f32) (a10 : FVec Ideal S128x128 .f32) (a11 : FVec Ideal S128 .f32)
    (a12 : FVec Ideal S128x128 .f32) (a13 : FVec Ideal S128 .f32) (a14 : FVec Ideal S128x16 .f32) (a15 : FVec Ideal S16 .f32)
    (a18 : FVec Ideal S128x16 .f32) (a19 : FVec Ideal S16 .f32) : FVec Ideal S100000x16 .f32 :=
  plus
    (meanAgg16 (F := Ideal) (affine (relu (plus (meanAgg128 (F := Ideal) (affine a0 a8 a9) a2 a3)
        (meanAgg128 (F := Ideal) (affine a1 a12 a13) a6 a7))) a14 a15) a2 a3)
    (meanAgg16 (F := Ideal) (affine (relu (meanAgg128 (F := Ideal) (affine a0 a10 a11) a4 a5)) a18 a19) a6 a7)

/-- The reference's result on the extended reals is the network of the argument arrays. -/
theorem res_layers (m : (ℓ : Loc nD τ sig) → Buf (Elt Ideal) ℓ) (c : Dev nD) :
    res_main_v118 (F := Ideal) m c = networkOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg18)) (m ((c.tc : Thread nD τ).loc main_arg19)) := by
  rw [res_regrouped, lin128_eq, lin128_eq, lin128_eq, hostRelu_eq, hostRelu_eq, lin16_eq, lin16_eq]
  rfl

end Cert.ReferenceIdeal.RefValue

end
-- ==== Proof.Bridge.lean ====
/-
  The idealized kernel and the idealized reference compute one function.

  Both results are the two-layer network of the argument arrays (the kernel's: the fold of its ten segments read
  back; the reference's: its run's composed term regrouped). The two spellings of the network differ in one place
  only: the mean over incoming edges is built from each program's own printed records of the gather and the two
  scatter-adds. Those records have the same fields, so the two means are the same function, and so are the networks.
  No law of arithmetic is used and no entry needs to be finite: the precondition is never opened.
-/
import proofs.«108900_j70978629533711_1_alg».proof.Defs
import proofs.«108900_j70978629533711_1_alg».proof.Proof.Gen.Pre_finite_inputs
import proofs.«108900_j70978629533711_1_alg».proof.Proof.KernelRun
import proofs.«108900_j70978629533711_1_alg».proof.Proof.KernelFold
import proofs.«108900_j70978629533711_1_alg».proof.Proof.Reference

set_option maxRecDepth 16384

noncomputable section

namespace Cert.Proof.Bridge

open Idealize.ShloMosaic Idealize.ShloMosaic.TcCoe Idealize.SL.Sem

/-- The mean over incoming edges of 128-wide rows: the kernel's host operations and the reference's are the same
    operations with the same constants. -/
theorem meanAgg128_eq (x : FVec Ideal Cert.KernelIdeal.S100000x128 .f32) (src dst : IVec Cert.KernelIdeal.S600000 32) :
    Cert.KernelIdeal.Whole.meanAgg128 (F := Ideal) x src dst = Cert.ReferenceIdeal.RefValue.meanAgg128 (F := Ideal) x src dst := rfl

/-- The same for 16-wide rows. -/
theorem meanAgg16_eq (x : FVec Ideal Cert.KernelIdeal.S100000x16 .f32) (src dst : IVec Cert.KernelIdeal.S600000 32) :
    Cert.KernelIdeal.Whole.meanAgg16 (F := Ideal) x src dst = Cert.ReferenceIdeal.RefValue.meanAgg16 (F := Ideal) x src dst := rfl

/-- So the two programs' networks are one function of the arrays. -/
theorem networkOf_eq (a0 a1 : FVec Ideal Cert.KernelIdeal.S100000x128 .f32) (a2 a3 a4 a5 a6 a7 : IVec Cert.KernelIdeal.S600000 32)
    (a8 : FVec Ideal Cert.KernelIdeal.S128x128 .f32) (a9 : FVec Ideal Cert.KernelIdeal.S128 .f32)
    (a10 : FVec Ideal Cert.KernelIdeal.S128x128 .f32) (a11 : FVec Ideal Cert.KernelIdeal.S128 .f32)
    (a12 : FVec Ideal Cert.KernelIdeal.S128x128 .f32) (a13 : FVec Ideal Cert.KernelIdeal.S128 .f32)
    (a14 : FVec Ideal Cert.KernelIdeal.S128x16 .f32) (a15 : FVec Ideal Cert.KernelIdeal.S16 .f32)
    (a18 : FVec Ideal Cert.KernelIdeal.S128x16 .f32) (a19 : FVec Ideal Cert.KernelIdeal.S16 .f32) :
    Cert.KernelIdeal.Whole.networkOf a0 a1 a2 a3 a4 a5 a6 a7 a8 a9 a10 a11 a12 a13 a14 a15 a18 a19
      = Cert.ReferenceIdeal.RefValue.networkOf a0 a1 a2 a3 a4 a5 a6 a7 a8 a9 a10 a11 a12 a13 a14 a15 a18 a19 := by
  unfold Cert.KernelIdeal.Whole.networkOf Cert.ReferenceIdeal.RefValue.networkOf
  rw [meanAgg128_eq, meanAgg128_eq, meanAgg128_eq, meanAgg16_eq, meanAgg16_eq]

/-- The idealized kernel's run with its result named: the network of the launch arrays; the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v102)
          = Cert.KernelIdeal.Whole.networkOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
        ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
        ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)) :=
  (θ_run Cert.KernelIdeal.defs _ _).mono (fun r h c =>
      ⟨(Cert.KernelIdeal.Whole.result_mem m ρ r h c).trans (Cert.KernelIdeal.Whole.W10_v102_of m ρ c),
       (h c _ (Cert.KernelIdeal.Gen.mem_uc Cert.KernelIdeal.main_arg0 (by decide))).trans (Cert.KernelIdeal.Gen.W10_main_arg0 m ρ c),
       (h c _ (Cert.KernelIdeal.Gen.mem_uc Cert.KernelIdeal.main_arg1 (by decide))).trans (Cert.KernelIdeal.Gen.W10_main_arg1 m ρ c),
       (h c _ (Cert.KernelIdeal.Gen.mem_uc Cert.KernelIdeal.main_arg2 (by decide))).trans (Cert.KernelIdeal.Gen.W10_main_arg2 m ρ c),
       (h c _ (Cert.KernelIdeal.Gen.mem_uc Cert.KernelIdeal.main_arg3 (by decide))).trans (Cert.KernelIdeal.Gen.W10_main_arg3 m ρ c),
       (h c _ (Cert.KernelIdeal.Gen.mem_uc Cert.KernelIdeal.main_arg4 (by decide))).trans (Cert.KernelIdeal.Gen.W10_main_arg4 m ρ c),
       (h c _ (Cert.KernelIdeal.Gen.mem_uc Cert.KernelIdeal.main_arg5 (by decide))).trans (Cert.KernelIdeal.Gen.W10_main_arg5 m ρ c),
       (h c _ (Cert.KernelIdeal.Gen.mem_uc Cert.KernelIdeal.main_arg6 (by decide))).trans (Cert.KernelIdeal.Gen.W10_main_arg6 m ρ c),
       (h c _ (Cert.KernelIdeal.Gen.mem_uc Cert.KernelIdeal.main_arg7 (by decide))).trans (Cert.KernelIdeal.Gen.W10_main_arg7 m ρ c),
       (h c _ (Cert.KernelIdeal.Gen.mem_uc Cert.KernelIdeal.main_arg8 (by decide))).trans (Cert.KernelIdeal.Gen.W10_main_arg8 m ρ c),
       (h c _ (Cert.KernelIdeal.Gen.mem_uc Cert.KernelIdeal.main_arg9 (by decide))).trans (Cert.KernelIdeal.Gen.W10_main_arg9 m ρ c),
       (h c _ (Cert.KernelIdeal.Gen.mem_uc Cert.KernelIdeal.main_arg10 (by decide))).trans (Cert.KernelIdeal.Gen.W10_main_arg10 m ρ c),
       (h c _ (Cert.KernelIdeal.Gen.mem_uc Cert.KernelIdeal.main_arg11 (by decide))).trans (Cert.KernelIdeal.Gen.W10_main_arg11 m ρ c),
       (h c _ (Cert.KernelIdeal.Gen.mem_uc Cert.KernelIdeal.main_arg12 (by decide))).trans (Cert.KernelIdeal.Gen.W10_main_arg12 m ρ c),
       (h c _ (Cert.KernelIdeal.Gen.mem_uc Cert.KernelIdeal.main_arg13 (by decide))).trans (Cert.KernelIdeal.Gen.W10_main_arg13 m ρ c),
       (h c _ (Cert.KernelIdeal.Gen.mem_uc Cert.KernelIdeal.main_arg14 (by decide))).trans (Cert.KernelIdeal.Gen.W10_main_arg14 m ρ c),
       (h c _ (Cert.KernelIdeal.Gen.mem_uc Cert.KernelIdeal.main_arg15 (by decide))).trans (Cert.KernelIdeal.Gen.W10_main_arg15 m ρ c),
       (h c _ (Cert.KernelIdeal.Gen.mem_uc Cert.KernelIdeal.main_arg16 (by decide))).trans (Cert.KernelIdeal.Gen.W10_main_arg16 m ρ c),
       (h c _ (Cert.KernelIdeal.Gen.mem_uc Cert.KernelIdeal.main_arg17 (by decide))).trans (Cert.KernelIdeal.Gen.W10_main_arg17 m ρ c),
       (h c _ (Cert.KernelIdeal.Gen.mem_uc Cert.KernelIdeal.main_arg18 (by decide))).trans (Cert.KernelIdeal.Gen.W10_main_arg18 m ρ c),
       (h c _ (Cert.KernelIdeal.Gen.mem_uc Cert.KernelIdeal.main_arg19 (by decide))).trans (Cert.KernelIdeal.Gen.W10_main_arg19 m ρ c)⟩)
    (Cert.KernelIdeal.Whole.run_all m ρ)

/-- From memories agreeing on the arguments both programs end with the network of those arguments in their result
    arrays. -/
theorem algebraic : Cert.algebraic_KernelIdeal_ReferenceIdeal := by
  intro m ρ m' ρ' _ hagree
  refine ⟨fun c => Cert.KernelIdeal.Whole.networkOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19⟩ := hagree c
  rw [Cert.ReferenceIdeal.RefValue.res_layers, h0, h1, h2, h3, h4, h5, h6, h7, h8, h9, h10, h11, h12, h13, h14, h15, h18, h19]
  exact (networkOf_eq _ _ _ _ _ _ _ _ _ _ _ _ _ _ _ _ _ _).symm

end Cert.Proof.Bridge

end
-- ==== Proof.lean ====
/-
  A two-layer relational graph network on a graph of 100000 user nodes and 100000 item nodes with three edge types
  (user→user, user→item, item→user; 600000 edges each), against its plain array reference.

  Each layer applies, per edge type, a linear map x · w + b to the source nodes' features, averages the mapped rows
  over the edges arriving at each destination node (a node no edge arrives at gets zero: the sum is divided by
  max(count, 1)), and adds the averages arriving at one node type; between the layers a rectifier. Only the user
  nodes' second-layer output is returned.

  The kernel computes the five linear maps and the three entrywise steps (sum + rectifier, rectifier, sum) in eight
  pipelined regions, twenty blocks of 5000 rows each; the gathers, scatter-adds and divisions are host operations
  between the regions, the same ones the reference applies. On the extended reals:
    * a region's output array is the region's layer of the arrays it was entered with (a row of x · w + b reads the
      same row of x only, so a block of rows of the layer is the layer of that block; rounding the operands to bf16
      before the matrix unit's product is not seen) — Proof/Region0 … Region7 over Proof/Layers;
    * the buffer contents at the ten segment boundaries compose these with the host stretches' mean aggregations —
      Proof/KernelRun, Proof/KernelHost, Proof/KernelFold;
    * the reference's composed term, regrouped, is the same composition, its dot_general plus broadcast bias the same
      linear layer — Proof/Reference;
    * the two mean aggregations are the same operations with the same constants, kept as one function and never
      opened — Proof/Bridge.
  No arithmetic law joins the two sides beyond the product's definition as a sum over the contracted axis, so no
  entry needs to be finite and the precondition is not used. The idealization rewrote nothing: `preserves` is `True`.
-/
import proofs.«108900_j70978629533711_1_alg».proof.Defs
import proofs.«108900_j70978629533711_1_alg».proof.Proof.Gen.Kernel
import proofs.«108900_j70978629533711_1_alg».proof.Proof.Gen.Kernel.Skeleton
import proofs.«108900_j70978629533711_1_alg».proof.Proof.Gen.Kernel.Launch
import proofs.«108900_j70978629533711_1_alg».proof.Proof.Gen.Kernel.Points
import proofs.«108900_j70978629533711_1_alg».proof.Proof.Gen.Kernel.Frame
import proofs.«108900_j70978629533711_1_alg».proof.Proof.Gen.KernelIdeal
import proofs.«108900_j70978629533711_1_alg».proof.Proof.Gen.KernelIdeal.Skeleton
import proofs.«108900_j70978629533711_1_alg».proof.Proof.Gen.KernelIdeal.Launch
import proofs.«108900_j70978629533711_1_alg».proof.Proof.Gen.KernelIdeal.Points
import proofs.«108900_j70978629533711_1_alg».proof.Proof.Gen.KernelIdeal.Frame
import proofs.«108900_j70978629533711_1_alg».proof.Proof.Gen.ReferenceIdeal
import proofs.«108900_j70978629533711_1_alg».proof.Proof.Gen.Pre_finite_inputs
import proofs.«108900_j70978629533711_1_alg».proof.Proof.Gen.ReferenceIdeal.Run
import proofs.«108900_j70978629533711_1_alg».proof.Proof.Bridge
import Idealize.ShloMosaic.Adequacy
import Idealize.ShloMosaic.Init

noncomputable section

namespace Cert.Proof

open Idealize.ShloMosaic Idealize.SL.Sem Cert.Kernel

/-- The word-level kernel runs and leaves its arguments as launched (the generated frame of its eight regions). -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Proof.Bridge.algebraic⟩

end Cert.Proof

end
